-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x512 : Shape := ⟨3, ![8, 64, 512]⟩
abbrev S1024x640 : Shape := ⟨2, ![1024, 640]⟩
abbrev S640 : Shape := ⟨1, ![640]⟩
abbrev S640x1024 : Shape := ⟨2, ![640, 1024]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S1024x640 : S_.BroadcastsInDim S1024x640 (![] : Fin 0 → Fin S1024x640.rank)
  reducesTo_S1024x640_S_d0_1 : S1024x640.ReducesTo [0, 1] S_
  bcast_S_S640 : S_.BroadcastsInDim S640 (![] : Fin 0 → Fin S640.rank)
  reducesTo_S640_S_d0 : S640.ReducesTo [0] S_
  bcast_S_S640x1024 : S_.BroadcastsInDim S640x1024 (![] : Fin 0 → Fin S640x1024.rank)
  reducesTo_S640x1024_S_d0_1 : S640x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S640x1024 .f32) (main_arg5 : FVec F S1024 .f32) (main_v13 : IVec S_ 1) (main_v16 : IVec S640 1) : IVec S_ 1 :=
  let main_c_5 : IVec S_ 1 := constantI S_ 1 1#1
  let main_v17 : IVec S_ 1 := (fun x v => Host.reduce IntOp.andi x v reducesTo_S640_S_d0 h_S_) main_v16 main_c_5
  let main_v18 : IVec S_ 1 := andi main_v13 main_v17
  let main_v19 : FVec F S640x1024 .f32 := Host.absf main_arg4
  let main_cst_6 : FVec F S_ .f32 := constant S_ .f32 0x7F800000#32
  let main_v20 : FVec F S640x1024 .f32 := broadcastInDim S640x1024 ![] bcast_S_S640x1024 main_cst_6
  let main_v21 : IVec S640x1024 1 := cmpf .olt main_v19 main_v20
  let main_c_7 : IVec S_ 1 := constantI S_ 1 1#1
  let main_v22 : IVec S_ 1 := (fun x v => Host.reduce IntOp.andi x v reducesTo_S640x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S8x256x512 .f32) (main_arg1 : FVec F S8x64x512 .f32) (main_arg2 : FVec F S1024x640 .f32) (main_arg3 : FVec F S640 .f32) (main_arg4 : FVec F S640x1024 .f32) (main_arg5 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S1024x640 .f32 := Host.absf main_arg2
  let main_cst_2 : FVec F S_ .f32 := constant S_ .f32 0x7F800000#32
  let main_v10 : FVec F S1024x640 .f32 := broadcastInDim S1024x640 ![] bcast_S_S1024x640 main_cst_2
  let main_v11 : IVec S1024x640 1 := cmpf .olt main_v9 main_v10
  let main_c_3 : IVec S_ 1 := constantI S_ 1 1#1
  let main_v12 : IVec S_ 1 := (fun x v => Host.reduce IntOp.andi x v reducesTo_S1024x640_S_d0_1 h_S_) main_v11 main_c_3
  let main_v13 : IVec S_ 1 := andi main_v8 main_v12
  let main_v14 : FVec F S640 .f32 := Host.absf main_arg3
  let main_cst_4 : FVec F S_ .f32 := constant S_ .f32 0x7F800000#32
  let main_v15 : FVec F S640 .f32 := broadcastInDim S640 ![] bcast_S_S640 main_cst_4
  let main_v16 : IVec S640 1 := cmpf .olt main_v14 main_v15
  fn_part1 (F := F) main_arg4 main_arg5 main_v13 main_v16
-- ==== Kernel.lean ====
abbrev S8x256x512 : Shape := ⟨3, ![8, 256, 512]⟩
abbrev S8x64x512 : Shape := ⟨3, ![8, 64, 512]⟩
abbrev S1024x640 : Shape := ⟨2, ![1024, 640]⟩
abbrev S640 : Shape := ⟨1, ![640]⟩
abbrev S640x1024 : Shape := ⟨2, ![640, 1024]⟩
abbrev S1024 : Shape := ⟨1, ![1024]⟩
abbrev S1x640 : Shape := ⟨2, ![1, 640]⟩
abbrev S1x1024 : Shape := ⟨2, ![1, 1024]⟩
abbrev S8x256x64x1024 : Shape := ⟨4, ![8, 256, 64, 1024]⟩
abbrev S1x16x512 : Shape := ⟨3, ![1, 16, 512]⟩
abbrev S1x64x512 : Shape := ⟨3, ![1, 64, 512]⟩
abbrev S1x16x64x1024 : Shape := ⟨4, ![1, 16, 64, 1024]⟩
abbrev S16x512 : Shape := ⟨2, ![16, 512]⟩
abbrev S64x512 : Shape := ⟨2, ![64, 512]⟩
abbrev S512x640 : Shape := ⟨2, ![512, 640]⟩
abbrev S16x640 : Shape := ⟨2, ![16, 640]⟩
abbrev S64x640 : Shape := ⟨2, ![64, 640]⟩
abbrev S1x1x640 : Shape := ⟨3, ![1, 1, 640]⟩
abbrev S16x1x640 : Shape := ⟨3, ![16, 1, 640]⟩
abbrev S1x64x640 : Shape := ⟨3, ![1, 64, 640]⟩
abbrev S16x64x640 : Shape := ⟨3, ![16, 64, 640]⟩
abbrev S1024x1024 : Shape := ⟨2, ![1024, 1024]⟩
abbrev S16x64x1024 : Shape := ⟨3, ![16, 64, 1024]⟩

abbrev nBuf : Space → Nat
  | .hbm => 9
  | .vmem => 10
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x640, .f32⟩
  | .hbm, ⟨3, _⟩ => ⟨S640, .f32⟩
  | .hbm, ⟨4, _⟩ => ⟨S640x1024, .f32⟩
  | .hbm, ⟨5, _⟩ => ⟨S1024, .f32⟩
  | .hbm, ⟨6, _⟩ => ⟨S1x640, .f32⟩
  | .hbm, ⟨7, _⟩ => ⟨S1x1024, .f32⟩
  | .hbm, ⟨8, _⟩ => ⟨S8x256x64x1024, .f32⟩
  | .local _ .vmem, ⟨0, _⟩ => ⟨S1x16x512, .f32⟩
  | .local _ .vmem, ⟨1, _⟩ => ⟨S1x16x512, .f32⟩
  | .local _ .vmem, ⟨2, _⟩ => ⟨S1x64x512, .f32⟩
  | .local _ .vmem, ⟨3, _⟩ => ⟨S1x64x512, .f32⟩
  | .local _ .vmem, ⟨4, _⟩ => ⟨S1024x640, .f32⟩
  | .local _ .vmem, ⟨5, _⟩ => ⟨S1x640, .f32⟩
  | .local _ .vmem, ⟨6, _⟩ => ⟨S640x1024, .f32⟩
  | .local _ .vmem, ⟨7, _⟩ => ⟨S1x1024, .f32⟩
  | .local _ .vmem, ⟨8, _⟩ => ⟨S1x16x64x1024, .f32⟩
  | .local _ .vmem, ⟨9, _⟩ => ⟨S1x16x64x1024, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S640x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S640_S1x640 : S640.ShapeCasts S1x640
  shapeCasts_S1024_S1x1024 : S1024.ShapeCasts S1x1024
  inb_S1x16x512_S1x16x512_0_0_0 : ∀ a, (![0, 0, 0] : Fin 3 → Nat) a + S1x16x512.size a ≤ S1x16x512.size a
  h_S1x16x512 : 0 < S1x16x512.numel
  shapeCasts_S1x16x512_S16x512 : S1x16x512.ShapeCasts S16x512
  bitsLt_bf16_f32 : FTy.bits .bf16 < FTy.bits .f32
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S1024x640_S1024x640_0_0 : ∀ a, (![0, 0] : Fin 2 → Nat) a + S1024x640.size a ≤ S1024x640.size a
  h_S1024x640 : 0 < S1024x640.numel
  slices_S1024x640_o0_0_S512x640 : S1024x640.Slices ![0, 0] S512x640
  slices_S1024x640_o512_0_S512x640 : S1024x640.Slices ![512, 0] S512x640
  inb_S1x640_S1x640_0_0 : ∀ a, (![0, 0] : Fin 2 → Nat) a + S1x640.size a ≤ S1x640.size a
  h_S1x640 : 0 < S1x640.numel
  shapeCasts_S1x640_S1x640 : S1x640.ShapeCasts S1x640
  inb_S640x1024_S640x1024_0_0 : ∀ a, (![0, 0] : Fin 2 → Nat) a + S640x1024.size a ≤ S640x1024.size a
  h_S640x1024 : 0 < S640x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  shapeCasts_S1x640_S1x1x640 : S1x640.ShapeCasts S1x1x640
  shapeCasts_S16x640_S16x1x640 : S16x640.ShapeCasts S16x1x640
  shapeCasts_S64x640_S1x64x640 : S64x640.ShapeCasts S1x64x640
  broadcasts_S16x1x640_S16x64x640 : S16x1x640.Broadcasts S16x64x640
  broadcasts_S1x64x640_S16x64x640 : S1x64x640.Broadcasts S16x64x640
  broadcasts_S1x1x640_S16x64x640 : S1x1x640.Broadcasts S16x64x640
  shapeCasts_S16x64x640_S1024x640 : S16x64x640.ShapeCasts S1024x640
  broadcasts_S1x1024_S1024x1024 : S1x1024.Broadcasts S1024x1024
  shapeCasts_S1024x1024_S16x64x1024 : S1024x1024.ShapeCasts S16x64x1024
  inb_S1x16x64x1024_S1x16x64x1024_0_0_0_0 : ∀ a, (![0, 0, 0, 0] : Fin 4 → Nat) a + S1x16x64x1024.size a ≤ S1x16x64x1024.size a
  h_S1x16x64x1024 : 0 < S1x16x64x1024.numel
  shapeCasts_S1x16x64x1024_S16x64x1024 : S1x16x64x1024.ShapeCasts S16x64x1024
  shapeCasts_S16x64x1024_S1x16x64x1024 : S16x64x1024.ShapeCasts S1x16x64x1024
  dot_S16x512_S512x640_S16x640_1_0_0_1_n_n_wf : DotDims.WF S16x512 S512x640 S16x640 [1] [0] [0] [1] [] []
  dot_S64x512_S512x640_S64x640_1_0_0_1_n_n_wf : DotDims.WF S64x512 S512x640 S64x640 [1] [0] [0] [1] [] []
  dot_S1024x640_S640x1024_S1024x1024_1_0_0_1_n_n_wf : DotDims.WF S1024x640 S640x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x512.size a ≤ S8x256x512.size a
  hwx0_0 : ∀ i : grid0.Coords, EltTy.bits .f32 = 32 ∨ (Rect.block (s := S8x256x512) S1x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x640.size a ≤ S1024x640.size a
  hwx0_2 : ∀ i : grid0.Coords, EltTy.bits .f32 = 32 ∨ (Rect.block (s := S1024x640) S1024x640.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x640.size a ≤ S1x640.size a
  hwx0_3 : ∀ i : grid0.Coords, EltTy.bits .f32 = 32 ∨ (Rect.block (s := S1x640) S1x640.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S640x1024.size a ≤ S640x1024.size a
  hwx0_4 : ∀ i : grid0.Coords, EltTy.bits .f32 = 32 ∨ (Rect.block (s := S640x1024) S640x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x64x1024.size a ≤ S8x256x64x1024.size a
  hwx0_6 : ∀ i : grid0.Coords, EltTy.bits .f32 = 32 ∨ (Rect.block (s := S8x256x64x1024) S1x16x64x1024.size (cc0_transform_6 i) (hinb0_6 i)).WholeWords (EltTy.packing .f32)

variable [Facts₀]

def dot_S16x512_S512x640_S16x640_1_0_0_1_n_n : DotDims S16x512 S512x640 S16x640 where
  lhsContracting := [1]
  rhsContracting := [0]
  lhsNonContracting := [0]
  rhsNonContracting := [1]
  lhsBatch := []
  rhsBatch := []
  wf := dot_S16x512_S512x640_S16x640_1_0_0_1_n_n_wf
def dot_S64x512_S512x640_S64x640_1_0_0_1_n_n : DotDims S64x512 S512x640 S64x640 where
  lhsContracting := [1]
  rhsContracting := [0]
  lhsNonContracting := [0]
  rhsNonContracting := [1]
  lhsBatch := []
  rhsBatch := []
  wf := dot_S64x512_S512x640_S64x640_1_0_0_1_n_n_wf
def dot_S1024x640_S640x1024_S1024x1024_1_0_0_1_n_n : DotDims S1024x640 S640x1024 S1024x1024 where
  lhsContracting := [1]
  rhsContracting := [0]
  lhsNonContracting := [0]
  rhsNonContracting := [1]
  lhsBatch := []
  rhsBatch := []
  wf := dot_S1024x640_S640x1024_S1024x1024_1_0_0_1_n_n_wf

abbrev win0_0 : Pipeline.Window sig grid0 :=
  Pipeline.Window.ofSpec (Memref.whole main_arg0) S1x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x640.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x640.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S640x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x16x64x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8x64x512 : Shape := ⟨3, ![8, 64, 512]⟩
abbrev S1024x640 : Shape := ⟨2, ![1024, 640]⟩
abbrev S640 : Shape := ⟨1, ![640]⟩
abbrev S640x1024 : Shape := ⟨2, ![640, 1024]⟩
abbrev S1024 : Shape := ⟨1, ![1024]⟩
abbrev S512x640 : Shape := ⟨2, ![512, 640]⟩
abbrev S8x256x640 : Shape := ⟨3, ![8, 256, 640]⟩
abbrev S8x64x640 : Shape := ⟨3, ![8, 64, 640]⟩
abbrev S8x256x1x640 : Shape := ⟨4, ![8, 256, 1, 640]⟩
abbrev S8x1x64x640 : Shape := ⟨4, ![8, 1, 64, 640]⟩
abbrev S8x256x64x640 : Shape := ⟨4, ![8, 256, 64, 640]⟩
abbrev S1x1x1x640 : Shape := ⟨4, ![1, 1, 1, 640]⟩
abbrev S_ : Shape := ⟨0, ![]⟩
abbrev S8x256x64x1024 : Shape := ⟨4, ![8, 256, 64, 1024]⟩
abbrev S1x1x1x1024 : Shape := ⟨4, ![1, 1, 1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x640, .f32⟩
  | .hbm, ⟨3, _⟩ => ⟨S640, .f32⟩
  | .hbm, ⟨4, _⟩ => ⟨S640x1024, .f32⟩
  | .hbm, ⟨5, _⟩ => ⟨S1024, .f32⟩
  | .hbm, ⟨6, _⟩ => ⟨S512x640, .f32⟩
  | .hbm, ⟨7, _⟩ => ⟨S512x640, .f32⟩
  | .hbm, ⟨8, _⟩ => ⟨S8x256x640, .f32⟩
  | .hbm, ⟨9, _⟩ => ⟨S8x64x640, .f32⟩
  | .hbm, ⟨10, _⟩ => ⟨S8x256x1x640, .f32⟩
  | .hbm, ⟨11, _⟩ => ⟨S8x1x64x640, .f32⟩
  | .hbm, ⟨12, _⟩ => ⟨S8x256x64x640, .f32⟩
  | .hbm, ⟨13, _⟩ => ⟨S8x256x64x640, .f32⟩
  | .hbm, ⟨14, _⟩ => ⟨S8x256x64x640, .f32⟩
  | .hbm, ⟨15, _⟩ => ⟨S1x1x1x640, .f32⟩
  | .hbm, ⟨16, _⟩ => ⟨S8x256x64x640, .f32⟩
  | .hbm, ⟨17, _⟩ => ⟨S8x256x64x640, .f32⟩
  | .hbm, ⟨18, _⟩ => ⟨S_, .f32⟩
  | .hbm, ⟨19, _⟩ => ⟨S8x256x64x640, .f32⟩
  | .hbm, ⟨20, _⟩ => ⟨S8x256x64x640, .f32⟩
  | .hbm, ⟨21, _⟩ => ⟨S8x256x64x1024, .f32⟩
  | .hbm, ⟨22, _⟩ => ⟨S1x1x1x1024, .f32⟩
  | .hbm, ⟨23, _⟩ => ⟨S8x256x64x1024, .f32⟩
  | .hbm, ⟨24, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_call0_cst : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩

abbrev nD : Nat := 1
abbrev τ : Topo := Topo.v7x

variable {F : FTy → Type} [FloatOps F]

class Facts₀ : Prop where
  slices_S1024x640_S512x640_0_0 : S1024x640.Slices ![0, 0] S512x640
  slices_S1024x640_S512x640_512_0 : S1024x640.Slices ![512, 0] S512x640
  bcast_S8x256x640_S8x256x1x640_0_1_3 : S8x256x640.BroadcastsInDim S8x256x1x640 (![0, 1, 3] : Fin 3 → Fin S8x256x1x640.rank)
  bcast_S8x64x640_S8x1x64x640_0_2_3 : S8x64x640.BroadcastsInDim S8x1x64x640 (![0, 2, 3] : Fin 3 → Fin S8x1x64x640.rank)
  bcast_S8x256x1x640_S8x256x64x640_0_1_2_3 : S8x256x1x640.BroadcastsInDim S8x256x64x640 (![0, 1, 2, 3] : Fin 4 → Fin S8x256x64x640.rank)
  bcast_S8x1x64x640_S8x256x64x640_0_1_2_3 : S8x1x64x640.BroadcastsInDim S8x256x64x640 (![0, 1, 2, 3] : Fin 4 → Fin S8x256x64x640.rank)
  bcast_S640_S1x1x1x640_3 : S640.BroadcastsInDim S1x1x1x640 (![3] : Fin 1 → Fin S1x1x1x640.rank)
  bcast_S1x1x1x640_S8x256x64x640_0_1_2_3 : S1x1x1x640.BroadcastsInDim S8x256x64x640 (![0, 1, 2, 3] : Fin 4 → Fin S8x256x64x640.rank)
  bcast_S_S8x256x64x640 : S_.BroadcastsInDim S8x256x64x640 (![] : Fin 0 → Fin S8x256x64x640.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x512_S512x640_S8x256x640_2_0_01_1_n_n_wf : DotDims.WF S8x256x512 S512x640 S8x256x640 [2] [0] [0, 1] [1] [] []
  dot_S8x64x512_S512x640_S8x64x640_2_0_01_1_n_n_wf : DotDims.WF S8x64x512 S512x640 S8x64x640 [2] [0] [0, 1] [1] [] []
  dot_S8x256x64x640_S640x1024_S8x256x64x1024_3_0_012_1_n_n_wf : DotDims.WF S8x256x64x640 S640x1024 S8x256x64x1024 [3] [0] [0, 1, 2] [1] [] []

variable [Facts₀]

def dot_S8x256x512_S512x640_S8x256x640_2_0_01_1_n_n : DotDims S8x256x512 S512x640 S8x256x640 where
  lhsContracting := [2]
  rhsContracting := [0]
  lhsNonContracting := [0, 1]
  rhsNonContracting := [1]
  lhsBatch := []
  rhsBatch := []
  wf := dot_S8x256x512_S512x640_S8x256x640_2_0_01_1_n_n_wf
def dot_S8x64x512_S512x640_S8x64x640_2_0_01_1_n_n : DotDims S8x64x512 S512x640 S8x64x640 where
  lhsContracting := [2]
  rhsContracting := [0]
  lhsNonContracting := [0, 1]
  rhsNonContracting := [1]
  lhsBatch := []
  rhsBatch := []
  wf := dot_S8x64x512_S512x640_S8x64x640_2_0_01_1_n_n_wf
def dot_S8x256x64x640_S640x1024_S8x256x64x1024_3_0_012_1_n_n : DotDims S8x256x64x640 S640x1024 S8x256x64x1024 where
  lhsContracting := [3]
  rhsContracting := [0]
  lhsNonContracting := [0, 1, 2]
  rhsNonContracting := [1]
  lhsBatch := []
  rhsBatch := []
  wf := dot_S8x256x64x640_S640x1024_S8x256x64x1024_3_0_012_1_n_n_wf

class Facts : Prop extends Facts₀ where

variable [Facts]
-- ==== Proof.LibMlpRows.lean ====
/-
  Two-layer perceptron rows on the extended reals.

  A plain matrix product of an [E, K] array with a [K, H] array (the left operand contracted on its second axis, the
  right on its first) read at row r and column c is the sum over k of x (r, k) * w (k, c).  A concatenation of
  row-aligned pieces along the second axis reads, at column k, the piece whose span holds k.  So a product of a
  concatenation with W is the sum of the products of the pieces with the row bands of W: a finite sum split at the
  piece boundaries, which needs only that addition on the extended reals is commutative and associative.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

open scoped BigOperators

namespace Cert.MlpRows

open Idealize.ShloMosaic Idealize.ShloMosaic.ValueIdx

/-- The dimension numbers of a plain product [E, K] × [K, H] → [E, H]. -/
abbrev pdot (E K H : ℕ) (wf : DotDims.WF ⟨2, ![E, K]⟩ ⟨2, ![K, H]⟩ ⟨2, ![E, H]⟩ [1] [0] [0] [1] [] []) :
    DotDims ⟨2, ![E, K]⟩ ⟨2, ![K, H]⟩ ⟨2, ![E, H]⟩ :=
  { lhsContracting := [1], rhsContracting := [0], lhsNonContracting := [0], rhsNonContracting := [1],
    lhsBatch := [], rhsBatch := [], wf := wf }

/-- A plain product read at (r, c) is the sum over k of x (r, k) * w (k, c). -/
theorem pdot_apply {E K H : ℕ} (wf : DotDims.WF ⟨2, ![E, K]⟩ ⟨2, ![K, H]⟩ ⟨2, ![E, H]⟩ [1] [0] [0] [1] [] [])
    {φ₁ φ₂ : FTy} (prec : Option ContractPrecision) (x : FVec Ideal ⟨2, ![E, K]⟩ φ₁) (w : FVec Ideal ⟨2, ![K, H]⟩ φ₂)
    (r : Fin E) (c : Fin H) :
    Host.dotGeneral (pdot E K H wf) prec x w (ix2 r c) = ∑ k : Fin K, x (ix2 r k) * w (ix2 k c) := by
  simp only [Host.dotGeneral]
  rw [Ideal.dotGeneral_apply, ← Equiv.sum_comp (contrEquiv1 (pdot E K H wf) K rfl rfl).symm]
  refine Finset.sum_congr rfl fun k _ => ?_
  have hk := contrEquiv1_symm_val (pdot E K H wf) K rfl rfl k
  have el : (pdot E K H wf).lhsIdx (ix2 r c) ((contrEquiv1 (pdot E K H wf) K rfl rfl).symm k) = ix2 r k :=
    funext fun a => Fin.ext (by
      match a with
      | ⟨0, _⟩ =>
        show ((pdot E K H wf).lhsIdx (ix2 r c) _ 0).val = r.val
        unfold DotDims.lhsIdx
        rw [dif_neg (show ¬(0 : Fin 2) ∈ ([] : List (Fin 2)) by decide),
          dif_pos (show (0 : Fin 2) ∈ [(0 : Fin 2)] by decide)]
        rfl
      | ⟨1, _⟩ => exact ((pdot E K H wf).lhsIdx_val_of_single rfl _ _).trans hk)
  have er : (pdot E K H wf).rhsIdx (ix2 r c) ((contrEquiv1 (pdot E K H wf) K rfl rfl).symm k) = ix2 k c :=
    funext fun a => Fin.ext (by
      match a with
      | ⟨0, _⟩ => exact ((pdot E K H wf).rhsIdx_val_of_single rfl _ _).trans hk
      | ⟨1, _⟩ =>
        show ((pdot E K H wf).rhsIdx (ix2 r c) _ 1).val = c.val
        unfold DotDims.rhsIdx
        rw [dif_neg (show ¬(1 : Fin 2) ∈ ([] : List (Fin 2)) by decide),
          dif_pos (show (1 : Fin 2) ∈ [(1 : Fin 2)] by decide)]
        rfl)
  rw [el, er]

/-- The vector unit's product into a zero accumulator, read the same way. -/
theorem pmatmul_apply {E K H : ℕ} (wf : DotDims.WF ⟨2, ![E, K]⟩ ⟨2, ![K, H]⟩ ⟨2, ![E, H]⟩ [1] [0] [0] [1] [] [])
    {φ₁ φ₂ : FTy} (prec : Option ContractPrecision) (x : FVec Ideal ⟨2, ![E, K]⟩ φ₁) (w : FVec Ideal ⟨2, ![K, H]⟩ φ₂)
    (r : Fin E) (c : Fin H) :
    matmul (pdot E K H wf) prec x w (constant ⟨2, ![E, H]⟩ .f32 0x00000000#32) (ix2 r c)
      = ∑ k : Fin K, x (ix2 r k) * w (ix2 k c) := by
  rw [matmul_zero_eq_dotGeneral]; exact pdot_apply wf prec x w r c

/-- A [n] vector cast to a [1, n] row reads, at (0, c), the vector at c. -/
theorem shapeCast_n_1n_apply {n : ℕ} {α : Type} (b : (⟨1, ![n]⟩ : Shape).Idx → α)
    (h : (⟨1, ![n]⟩ : Shape).ShapeCasts ⟨2, ![1, n]⟩) (u : Fin 1) (c : Fin n) :
    shapeCast ⟨2, ![1, n]⟩ b h (ix2 u c) = b (ix1 c) :=
  shapeCast_apply b h _ _ (by
    have hu : u.val = 0 := by omega
    rw [Shape.rowMajor_val_two, Shape.rowMajor_val_one]
    show c.val = u.val * n + c.val
    rw [hu, Nat.zero_mul, Nat.zero_add])

/-- The f32 zero word read on the extended reals: the value both layers clamp at. -/
abbrev zero32 : Ideal .f32 := Scalar.ofBits .f32 0x00000000#32

/-! ## The row formulas -/

/-- One output of a layer whose input row is cut into three pieces: the three partial products against the bands of
    W starting at rows 0, o1 and o2, added left to right, plus the bias, clamped below at z. -/
def pre3 {K0 K1 K2 K H : ℕ} (o1 o2 : ℕ) (h0 : K0 ≤ K) (h1 : o1 + K1 ≤ K) (h2 : o2 + K2 ≤ K)
    (a0 : Fin K0 → EReal) (a1 : Fin K1 → EReal) (a2 : Fin K2 → EReal)
    (W : (⟨2, ![K, H]⟩ : Shape).Idx → EReal) (b : Fin H → EReal) (z : EReal) (h : Fin H) : EReal :=
  max ((((∑ k : Fin K0, a0 k * W (ix2 (⟨k.val, by have := k.isLt; omega⟩ : Fin K) h))
      + ∑ k : Fin K1, a1 k * W (ix2 (⟨o1 + k.val, by have := k.isLt; omega⟩ : Fin K) h))
      + ∑ k : Fin K2, a2 k * W (ix2 (⟨o2 + k.val, by have := k.isLt; omega⟩ : Fin K) h)) + b h) z

/-- The same with two pieces. -/
def pre2 {K0 K1 K H : ℕ} (o1 : ℕ) (h0 : K0 ≤ K) (h1 : o1 + K1 ≤ K)
    (a0 : Fin K0 → EReal) (a1 : Fin K1 → EReal)
    (W : (⟨2, ![K, H]⟩ : Shape).Idx → EReal) (b : Fin H → EReal) (z : EReal) (h : Fin H) : EReal :=
  max (((∑ k : Fin K0, a0 k * W (ix2 (⟨k.val, by have := k.isLt; omega⟩ : Fin K) h))
      + ∑ k : Fin K1, a1 k * W (ix2 (⟨o1 + k.val, by have := k.isLt; omega⟩ : Fin K) h)) + b h) z

/-- One output of a layer on a whole input row. -/
def lay {H O : ℕ} (a : Fin H → EReal) (W : (⟨2, ![H, O]⟩ : Shape).Idx → EReal) (b : Fin O → EReal) (z : EReal)
    (c : Fin O) : EReal :=
  max ((∑ h : Fin H, a h * W (ix2 h c)) + b c) z

/-! ## The kernel body's layers read at (r, c) -/

/-- A layer of the kernel body on one input: product into a zero accumulator, bias row broadcast down the rows,
    maximum with a splat. -/
theorem klay_apply {T H O : ℕ} (wf : DotDims.WF ⟨2, ![T, H]⟩ ⟨2, ![H, O]⟩ ⟨2, ![T, O]⟩ [1] [0] [0] [1] [] [])
    {φ ψ : FTy} (X : FVec Ideal ⟨2, ![T, H]⟩ φ) (W : FVec Ideal ⟨2, ![H, O]⟩ ψ) (b : FVec Ideal ⟨2, ![1, O]⟩ .f32)
    (sc : (⟨2, ![1, O]⟩ : Shape).ShapeCasts ⟨2, ![1, O]⟩) (bc : (⟨2, ![1, O]⟩ : Shape).Broadcasts ⟨2, ![T, O]⟩)
    (z : Ideal .f32) (r : Fin T) (c : Fin O) :
    maximumf (addf (matmul (pdot T H O wf) none X W (constant ⟨2, ![T, O]⟩ .f32 0x00000000#32))
        (broadcastTo ⟨2, ![T, O]⟩ (shapeCast ⟨2, ![1, O]⟩ b sc) bc)) (broadcast ⟨2, ![T, O]⟩ z) (ix2 r c)
      = lay (fun h => X (ix2 r h)) W (fun c => b (ix2 (0 : Fin 1) c)) z c := by
  rw [shapeCast_self, maximumf_apply, addf_apply, pmatmul_apply, broadcastTo_1b_ab_apply]
  rfl

/-- One band product of the first layer: the piece, cast to its own shape, against the band of the weight matrix
    starting at row o. -/
theorem kband_apply {T Ki K H : ℕ} (o : ℕ) (hb : o + Ki ≤ K)
    (wf : DotDims.WF ⟨2, ![T, Ki]⟩ ⟨2, ![Ki, H]⟩ ⟨2, ![T, H]⟩ [1] [0] [0] [1] [] [])
    {φ ψ : FTy} (x : FVec Ideal ⟨2, ![T, Ki]⟩ φ) (W : FVec Ideal ⟨2, ![K, H]⟩ ψ)
    (sc : (⟨2, ![T, Ki]⟩ : Shape).ShapeCasts ⟨2, ![T, Ki]⟩)
    (sl : (⟨2, ![K, H]⟩ : Shape).Slices ![o, 0] ⟨2, ![Ki, H]⟩) (r : Fin T) (h : Fin H) :
    matmul (pdot T Ki H wf) none (shapeCast ⟨2, ![T, Ki]⟩ x sc) (extractStridedSlice ⟨2, ![Ki, H]⟩ ![o, 0] W sl)
        (constant ⟨2, ![T, H]⟩ .f32 0x00000000#32) (ix2 r h)
      = ∑ k : Fin Ki, x (ix2 r k) * W (ix2 (⟨o + k.val, by have := k.isLt; omega⟩ : Fin K) h) := by
  rw [shapeCast_self, pmatmul_apply]
  refine Finset.sum_congr rfl fun k _ => ?_
  rw [slice2_axis0_apply o W sl k h ⟨o + k.val, by have := k.isLt; omega⟩ rfl]

/-- The whole kernel body with a three-piece input, read at (r, c): the second layer of the first. Narrowing a
    value's float format changes nothing on the extended reals. -/
theorem kernel3_apply {T K0 K1 K2 K H O : ℕ} (o1 o2 : ℕ) (h0 : K0 ≤ K) (h1 : o1 + K1 ≤ K) (h2 : o2 + K2 ≤ K)
    (wfA : DotDims.WF ⟨2, ![T, K0]⟩ ⟨2, ![K0, H]⟩ ⟨2, ![T, H]⟩ [1] [0] [0] [1] [] [])
    (wfB : DotDims.WF ⟨2, ![T, K1]⟩ ⟨2, ![K1, H]⟩ ⟨2, ![T, H]⟩ [1] [0] [0] [1] [] [])
    (wfC : DotDims.WF ⟨2, ![T, K2]⟩ ⟨2, ![K2, H]⟩ ⟨2, ![T, H]⟩ [1] [0] [0] [1] [] [])
    (wf2 : DotDims.WF ⟨2, ![T, H]⟩ ⟨2, ![H, O]⟩ ⟨2, ![T, O]⟩ [1] [0] [0] [1] [] [])
    (hlt : FTy.bf16.bits < FTy.f32.bits)
    (v0 : FVec Ideal ⟨2, ![K, H]⟩ .f32) (v2 : FVec Ideal ⟨2, ![T, K0]⟩ .bf16) (v6 : FVec Ideal ⟨2, ![T, K1]⟩ .bf16)
    (v11 : FVec Ideal ⟨2, ![T, K2]⟩ .bf16) (v16 : FVec Ideal ⟨2, ![1, H]⟩ .f32) (v23 : FVec Ideal ⟨2, ![H, O]⟩ .f32)
    (v26 : FVec Ideal ⟨2, ![1, O]⟩ .f32)
    (sc2 : (⟨2, ![T, K0]⟩ : Shape).ShapeCasts ⟨2, ![T, K0]⟩) (sc6 : (⟨2, ![T, K1]⟩ : Shape).ShapeCasts ⟨2, ![T, K1]⟩)
    (sc11 : (⟨2, ![T, K2]⟩ : Shape).ShapeCasts ⟨2, ![T, K2]⟩)
    (sl0 : (⟨2, ![K, H]⟩ : Shape).Slices ![0, 0] ⟨2, ![K0, H]⟩) (sl1 : (⟨2, ![K, H]⟩ : Shape).Slices ![o1, 0] ⟨2, ![K1, H]⟩)
    (sl2 : (⟨2, ![K, H]⟩ : Shape).Slices ![o2, 0] ⟨2, ![K2, H]⟩)
    (sc16 : (⟨2, ![1, H]⟩ : Shape).ShapeCasts ⟨2, ![1, H]⟩) (bc1 : (⟨2, ![1, H]⟩ : Shape).Broadcasts ⟨2, ![T, H]⟩)
    (sc26 : (⟨2, ![1, O]⟩ : Shape).ShapeCasts ⟨2, ![1, O]⟩) (bc2 : (⟨2, ![1, O]⟩ : Shape).Broadcasts ⟨2, ![T, O]⟩)
    (z : Ideal .f32) (r : Fin T) (c : Fin O) :
    maximumf (addf (matmul (pdot T H O wf2) none
        (truncf .bf16 (maximumf (addf (addf (addf
            (matmul (pdot T K0 H wfA) none (shapeCast ⟨2, ![T, K0]⟩ v2 sc2)
              (extractStridedSlice ⟨2, ![K0, H]⟩ ![0, 0] (truncf .bf16 v0 hlt) sl0) (constant ⟨2, ![T, H]⟩ .f32 0x00000000#32))
            (matmul (pdot T K1 H wfB) none (shapeCast ⟨2, ![T, K1]⟩ v6 sc6)
              (extractStridedSlice ⟨2, ![K1, H]⟩ ![o1, 0] (truncf .bf16 v0 hlt) sl1) (constant ⟨2, ![T, H]⟩ .f32 0x00000000#32)))
            (matmul (pdot T K2 H wfC) none (shapeCast ⟨2, ![T, K2]⟩ v11 sc11)
              (extractStridedSlice ⟨2, ![K2, H]⟩ ![o2, 0] (truncf .bf16 v0 hlt) sl2) (constant ⟨2, ![T, H]⟩ .f32 0x00000000#32)))
            (broadcastTo ⟨2, ![T, H]⟩ (shapeCast ⟨2, ![1, H]⟩ v16 sc16) bc1)) (broadcast ⟨2, ![T, H]⟩ z)) hlt)
        (truncf .bf16 v23 hlt) (constant ⟨2, ![T, O]⟩ .f32 0x00000000#32))
        (broadcastTo ⟨2, ![T, O]⟩ (shapeCast ⟨2, ![1, O]⟩ v26 sc26) bc2)) (broadcast ⟨2, ![T, O]⟩ z) (ix2 r c)
      = lay (pre3 o1 o2 h0 h1 h2 (fun k => v2 (ix2 r k)) (fun k => v6 (ix2 r k)) (fun k => v11 (ix2 r k)) v0
          (fun h => v16 (ix2 (0 : Fin 1) h)) z) v23 (fun c => v26 (ix2 (0 : Fin 1) c)) z c := by
  rw [klay_apply]
  unfold lay
  refine congrArg (fun s => max (s + v26 (ix2 (0 : Fin 1) c)) z) (Finset.sum_congr rfl fun h _ => ?_)
  refine congrArg (· * v23 (ix2 h c)) ?_
  beta_reduce
  rw [truncf_apply, maximumf_apply, addf_apply, addf_apply, addf_apply,
    kband_apply 0 (by omega) wfA v2 (truncf .bf16 v0 hlt) sc2 sl0 r h,
    kband_apply o1 h1 wfB v6 (truncf .bf16 v0 hlt) sc6 sl1 r h,
    kband_apply o2 h2 wfC v11 (truncf .bf16 v0 hlt) sc11 sl2 r h, shapeCast_self, broadcastTo_1b_ab_apply]
  unfold pre3
  simp only [Nat.zero_add, truncf_apply, broadcast_apply]

/-- The whole kernel body with a two-piece input, read at (r, c). -/
theorem kernel2_apply {T K0 K1 K H O : ℕ} (o1 : ℕ) (h0 : K0 ≤ K) (h1 : o1 + K1 ≤ K)
    (wfA : DotDims.WF ⟨2, ![T, K0]⟩ ⟨2, ![K0, H]⟩ ⟨2, ![T, H]⟩ [1] [0] [0] [1] [] [])
    (wfB : DotDims.WF ⟨2, ![T, K1]⟩ ⟨2, ![K1, H]⟩ ⟨2, ![T, H]⟩ [1] [0] [0] [1] [] [])
    (wf2 : DotDims.WF ⟨2, ![T, H]⟩ ⟨2, ![H, O]⟩ ⟨2, ![T, O]⟩ [1] [0] [0] [1] [] [])
    (hlt : FTy.bf16.bits < FTy.f32.bits)
    (v0 : FVec Ideal ⟨2, ![K, H]⟩ .f32) (v2 : FVec Ideal ⟨2, ![T, K0]⟩ .bf16) (v6 : FVec Ideal ⟨2, ![T, K1]⟩ .bf16)
    (v16 : FVec Ideal ⟨2, ![1, H]⟩ .f32) (v23 : FVec Ideal ⟨2, ![H, O]⟩ .f32) (v26 : FVec Ideal ⟨2, ![1, O]⟩ .f32)
    (sc2 : (⟨2, ![T, K0]⟩ : Shape).ShapeCasts ⟨2, ![T, K0]⟩) (sc6 : (⟨2, ![T, K1]⟩ : Shape).ShapeCasts ⟨2, ![T, K1]⟩)
    (sl0 : (⟨2, ![K, H]⟩ : Shape).Slices ![0, 0] ⟨2, ![K0, H]⟩) (sl1 : (⟨2, ![K, H]⟩ : Shape).Slices ![o1, 0] ⟨2, ![K1, H]⟩)
    (sc16 : (⟨2, ![1, H]⟩ : Shape).ShapeCasts ⟨2, ![1, H]⟩) (bc1 : (⟨2, ![1, H]⟩ : Shape).Broadcasts ⟨2, ![T, H]⟩)
    (sc26 : (⟨2, ![1, O]⟩ : Shape).ShapeCasts ⟨2, ![1, O]⟩) (bc2 : (⟨2, ![1, O]⟩ : Shape).Broadcasts ⟨2, ![T, O]⟩)
    (z : Ideal .f32) (r : Fin T) (c : Fin O) :
    maximumf (addf (matmul (pdot T H O wf2) none
        (truncf .bf16 (maximumf (addf (addf
            (matmul (pdot T K0 H wfA) none (shapeCast ⟨2, ![T, K0]⟩ v2 sc2)
              (extractStridedSlice ⟨2, ![K0, H]⟩ ![0, 0] (truncf .bf16 v0 hlt) sl0) (constant ⟨2, ![T, H]⟩ .f32 0x00000000#32))
            (matmul (pdot T K1 H wfB) none (shapeCast ⟨2, ![T, K1]⟩ v6 sc6)
              (extractStridedSlice ⟨2, ![K1, H]⟩ ![o1, 0] (truncf .bf16 v0 hlt) sl1) (constant ⟨2, ![T, H]⟩ .f32 0x00000000#32)))
            (broadcastTo ⟨2, ![T, H]⟩ (shapeCast ⟨2, ![1, H]⟩ v16 sc16) bc1)) (broadcast ⟨2, ![T, H]⟩ z)) hlt)
        (truncf .bf16 v23 hlt) (constant ⟨2, ![T, O]⟩ .f32 0x00000000#32))
        (broadcastTo ⟨2, ![T, O]⟩ (shapeCast ⟨2, ![1, O]⟩ v26 sc26) bc2)) (broadcast ⟨2, ![T, O]⟩ z) (ix2 r c)
      = lay (pre2 o1 h0 h1 (fun k => v2 (ix2 r k)) (fun k => v6 (ix2 r k)) v0
          (fun h => v16 (ix2 (0 : Fin 1) h)) z) v23 (fun c => v26 (ix2 (0 : Fin 1) c)) z c := by
  rw [klay_apply]
  unfold lay
  refine congrArg (fun s => max (s + v26 (ix2 (0 : Fin 1) c)) z) (Finset.sum_congr rfl fun h _ => ?_)
  refine congrArg (· * v23 (ix2 h c)) ?_
  beta_reduce
  rw [truncf_apply, maximumf_apply, addf_apply, addf_apply,
    kband_apply 0 (by omega) wfA v2 (truncf .bf16 v0 hlt) sc2 sl0 r h,
    kband_apply o1 h1 wfB v6 (truncf .bf16 v0 hlt) sc6 sl1 r h, shapeCast_self, broadcastTo_1b_ab_apply]
  unfold pre2
  simp only [Nat.zero_add, truncf_apply, broadcast_apply]

/-! ## The reference's layers read at (R, c) -/

/-- A [n] bias placed as the [1, n] row reads, at (u, c), the bias at c. -/
theorem bias_row_apply {n : ℕ} {α : Type} (b : (⟨1, ![n]⟩ : Shape).Idx → α)
    (h : (⟨1, ![n]⟩ : Shape).BroadcastsInDim ⟨2, ![1, n]⟩ ![1]) (u : Fin 1) (c : Fin n) :
    broadcastInDim ⟨2, ![1, n]⟩ ![1] h b (ix2 u c) = b (ix1 c) := by
  refine broadcastInDim_apply _ h b _ (ix1 c) fun a => ?_
  match a with
  | ⟨0, _⟩ =>
    show c.val = if n = 1 then 0 else c.val
    split
    · have := c.isLt; omega
    · rfl

/-- A layer of the reference on one whole input array: product, bias broadcast down the rows, maximum with an array
    that holds z everywhere. -/
theorem rlay_apply {E H O : ℕ} (wf : DotDims.WF ⟨2, ![E, H]⟩ ⟨2, ![H, O]⟩ ⟨2, ![E, O]⟩ [1] [0] [0] [1] [] [])
    {φ ψ : FTy} (X : FVec Ideal ⟨2, ![E, H]⟩ φ) (W : FVec Ideal ⟨2, ![H, O]⟩ ψ) (b : FVec Ideal ⟨1, ![O]⟩ .f32)
    (hbr : (⟨1, ![O]⟩ : Shape).BroadcastsInDim ⟨2, ![1, O]⟩ ![1])
    (hbb : (⟨2, ![1, O]⟩ : Shape).BroadcastsInDim ⟨2, ![E, O]⟩ ![0, 1])
    (Z : FVec Ideal ⟨2, ![E, O]⟩ .f32) (z : Ideal .f32) (hZ : ∀ i, Z i = z) (R : Fin E) (c : Fin O) :
    maximumf (addf (Host.dotGeneral (pdot E H O wf) none X W)
        (broadcastInDim ⟨2, ![E, O]⟩ ![0, 1] hbb (broadcastInDim ⟨2, ![1, O]⟩ ![1] hbr b))) Z (ix2 R c)
      = lay (fun h => X (ix2 R h)) W (fun c => b (ix1 c)) z c := by
  rw [maximumf_apply, addf_apply, pdot_apply, broadcastInDim_oneRow_apply, bias_row_apply, hZ]
  rfl

/-- The product of a three-piece concatenation along the second axis with W, read at (R, h): the sum over the
    joined axis split at the two piece boundaries. -/
theorem cat3_dot_apply {E K0 K1 K2 K H : ℕ} (hK : K = K0 + K1 + K2)
    (wf : DotDims.WF ⟨2, ![E, K]⟩ ⟨2, ![K, H]⟩ ⟨2, ![E, H]⟩ [1] [0] [0] [1] [] [])
    (x0 : FVec Ideal ⟨2, ![E, K0]⟩ .f32) (x1 : FVec Ideal ⟨2, ![E, K1]⟩ .f32) (x2 : FVec Ideal ⟨2, ![E, K2]⟩ .f32)
    (W : FVec Ideal ⟨2, ![K, H]⟩ .f32)
    (hc : Shape.Concatenates [⟨2, ![E, K0]⟩, ⟨2, ![E, K1]⟩, ⟨2, ![E, K2]⟩] ⟨2, ![E, K]⟩ 1) (R : Fin E) (h : Fin H) :
    Host.dotGeneral (pdot E K H wf) none
        (concatenate ⟨2, ![E, K]⟩ 1 [⟨⟨2, ![E, K0]⟩, x0⟩, ⟨⟨2, ![E, K1]⟩, x1⟩, ⟨⟨2, ![E, K2]⟩, x2⟩] hc) W (ix2 R h)
      = ((∑ k : Fin K0, x0 (ix2 R k) * W (ix2 (⟨k.val, by have := k.isLt; omega⟩ : Fin K) h))
        + ∑ k : Fin K1, x1 (ix2 R k) * W (ix2 (⟨K0 + k.val, by have := k.isLt; omega⟩ : Fin K) h))
        + ∑ k : Fin K2, x2 (ix2 R k) * W (ix2 (⟨K0 + K1 + k.val, by have := k.isLt; omega⟩ : Fin K) h) := by
  subst hK
  rw [pdot_apply, Fin.sum_univ_add, Fin.sum_univ_add]
  refine congrArg₂ (· + ·) (congrArg₂ (· + ·) ?_ ?_) ?_
  · refine Finset.sum_congr rfl fun k _ => ?_
    refine congrArg₂ (· * ·) ?_ (congrArg W (congrArg (ix2 · h) (Fin.ext rfl)))
    refine concatenate_apply_piece (α := Ideal .f32) (t := ⟨2, ![E, K0 + K1 + K2]⟩) 1 [⟨⟨2, ![E, K0]⟩, x0⟩, ⟨⟨2, ![E, K1]⟩, x1⟩, ⟨⟨2, ![E, K2]⟩, x2⟩] hc _ 0 (by simp) ⟨2, ![E, K0]⟩ x0 rfl rfl 0 rfl (ix2 R k) (fun b => ?_) ?_
    · match b with
      | ⟨0, _⟩ => exact fun _ => rfl
      | ⟨1, _⟩ => exact fun hb => absurd rfl hb
    · exact Nat.zero_add _
  · refine Finset.sum_congr rfl fun k _ => ?_
    refine congrArg₂ (· * ·) ?_ (congrArg W (congrArg (ix2 · h) (Fin.ext rfl)))
    refine concatenate_apply_piece (α := Ideal .f32) (t := ⟨2, ![E, K0 + K1 + K2]⟩) 1 [⟨⟨2, ![E, K0]⟩, x0⟩, ⟨⟨2, ![E, K1]⟩, x1⟩, ⟨⟨2, ![E, K2]⟩, x2⟩] hc _ 1 (by simp) ⟨2, ![E, K1]⟩ x1 rfl rfl K0 rfl (ix2 R k) (fun b => ?_) ?_
    · match b with
      | ⟨0, _⟩ => exact fun _ => rfl
      | ⟨1, _⟩ => exact fun hb => absurd rfl hb
    · rfl
  · refine Finset.sum_congr rfl fun k _ => ?_
    refine congrArg₂ (· * ·) ?_ (congrArg W (congrArg (ix2 · h) (Fin.ext rfl)))
    refine concatenate_apply_piece (α := Ideal .f32) (t := ⟨2, ![E, K0 + K1 + K2]⟩) 1 [⟨⟨2, ![E, K0]⟩, x0⟩, ⟨⟨2, ![E, K1]⟩, x1⟩, ⟨⟨2, ![E, K2]⟩, x2⟩] hc _ 2 (by simp) ⟨2, ![E, K2]⟩ x2 rfl rfl (K0 + K1) ?_ (ix2 R k) (fun b => ?_) ?_
    · show K0 + (K1 + 0) = K0 + K1
      rfl
    · match b with
      | ⟨0, _⟩ => exact fun _ => rfl
      | ⟨1, _⟩ => exact fun hb => absurd rfl hb
    · rfl

/-- The same for two pieces. -/
theorem cat2_dot_apply {E K0 K1 K H : ℕ} (hK : K = K0 + K1)
    (wf : DotDims.WF ⟨2, ![E, K]⟩ ⟨2, ![K, H]⟩ ⟨2, ![E, H]⟩ [1] [0] [0] [1] [] [])
    (x0 : FVec Ideal ⟨2, ![E, K0]⟩ .f32) (x1 : FVec Ideal ⟨2, ![E, K1]⟩ .f32) (W : FVec Ideal ⟨2, ![K, H]⟩ .f32)
    (hc : Shape.Concatenates [⟨2, ![E, K0]⟩, ⟨2, ![E, K1]⟩] ⟨2, ![E, K]⟩ 1) (R : Fin E) (h : Fin H) :
    Host.dotGeneral (pdot E K H wf) none
        (concatenate ⟨2, ![E, K]⟩ 1 [⟨⟨2, ![E, K0]⟩, x0⟩, ⟨⟨2, ![E, K1]⟩, x1⟩] hc) W (ix2 R h)
      = (∑ k : Fin K0, x0 (ix2 R k) * W (ix2 (⟨k.val, by have := k.isLt; omega⟩ : Fin K) h))
        + ∑ k : Fin K1, x1 (ix2 R k) * W (ix2 (⟨K0 + k.val, by have := k.isLt; omega⟩ : Fin K) h) := by
  subst hK
  rw [pdot_apply, Fin.sum_univ_add]
  refine congrArg₂ (· + ·) ?_ ?_
  · refine Finset.sum_congr rfl fun k _ => ?_
    refine congrArg₂ (· * ·) ?_ (congrArg W (congrArg (ix2 · h) (Fin.ext rfl)))
    refine concatenate_apply_piece (α := Ideal .f32) (t := ⟨2, ![E, K0 + K1]⟩) 1 [⟨⟨2, ![E, K0]⟩, x0⟩, ⟨⟨2, ![E, K1]⟩, x1⟩] hc _ 0 (by simp) ⟨2, ![E, K0]⟩ x0 rfl rfl 0 rfl (ix2 R k) (fun b => ?_) ?_
    · match b with
      | ⟨0, _⟩ => exact fun _ => rfl
      | ⟨1, _⟩ => exact fun hb => absurd rfl hb
    · exact Nat.zero_add _
  · refine Finset.sum_congr rfl fun k _ => ?_
    refine congrArg₂ (· * ·) ?_ (congrArg W (congrArg (ix2 · h) (Fin.ext rfl)))
    refine concatenate_apply_piece (α := Ideal .f32) (t := ⟨2, ![E, K0 + K1]⟩) 1 [⟨⟨2, ![E, K0]⟩, x0⟩, ⟨⟨2, ![E, K1]⟩, x1⟩] hc _ 1 (by simp) ⟨2, ![E, K1]⟩ x1 rfl rfl K0 rfl (ix2 R k) (fun b => ?_) ?_
    · match b with
      | ⟨0, _⟩ => exact fun _ => rfl
      | ⟨1, _⟩ => exact fun hb => absurd rfl hb
    · rfl

/-- The reference's two layers on a three-piece concatenation, read at (R, c). -/
theorem ref3_apply {E K0 K1 K2 K H O : ℕ} (hK : K = K0 + K1 + K2)
    (wf1 : DotDims.WF ⟨2, ![E, K]⟩ ⟨2, ![K, H]⟩ ⟨2, ![E, H]⟩ [1] [0] [0] [1] [] [])
    (wf2 : DotDims.WF ⟨2, ![E, H]⟩ ⟨2, ![H, O]⟩ ⟨2, ![E, O]⟩ [1] [0] [0] [1] [] [])
    (x0 : FVec Ideal ⟨2, ![E, K0]⟩ .f32) (x1 : FVec Ideal ⟨2, ![E, K1]⟩ .f32) (x2 : FVec Ideal ⟨2, ![E, K2]⟩ .f32)
    (W1 : FVec Ideal ⟨2, ![K, H]⟩ .f32) (b1 : FVec Ideal ⟨1, ![H]⟩ .f32) (W2 : FVec Ideal ⟨2, ![H, O]⟩ .f32)
    (b2 : FVec Ideal ⟨1, ![O]⟩ .f32)
    (hc : Shape.Concatenates [⟨2, ![E, K0]⟩, ⟨2, ![E, K1]⟩, ⟨2, ![E, K2]⟩] ⟨2, ![E, K]⟩ 1)
    (hbr1 : (⟨1, ![H]⟩ : Shape).BroadcastsInDim ⟨2, ![1, H]⟩ ![1])
    (hbb1 : (⟨2, ![1, H]⟩ : Shape).BroadcastsInDim ⟨2, ![E, H]⟩ ![0, 1])
    (hbr2 : (⟨1, ![O]⟩ : Shape).BroadcastsInDim ⟨2, ![1, O]⟩ ![1])
    (hbb2 : (⟨2, ![1, O]⟩ : Shape).BroadcastsInDim ⟨2, ![E, O]⟩ ![0, 1])
    (Z1 : FVec Ideal ⟨2, ![E, H]⟩ .f32) (Z2 : FVec Ideal ⟨2, ![E, O]⟩ .f32) (z : Ideal .f32)
    (hZ1 : ∀ i, Z1 i = z) (hZ2 : ∀ i, Z2 i = z) (R : Fin E) (c : Fin O) :
    maximumf (addf (Host.dotGeneral (pdot E H O wf2) none
        (maximumf (addf (Host.dotGeneral (pdot E K H wf1) none
            (concatenate ⟨2, ![E, K]⟩ 1 [⟨⟨2, ![E, K0]⟩, x0⟩, ⟨⟨2, ![E, K1]⟩, x1⟩, ⟨⟨2, ![E, K2]⟩, x2⟩] hc) W1)
          (broadcastInDim ⟨2, ![E, H]⟩ ![0, 1] hbb1 (broadcastInDim ⟨2, ![1, H]⟩ ![1] hbr1 b1))) Z1) W2)
        (broadcastInDim ⟨2, ![E, O]⟩ ![0, 1] hbb2 (broadcastInDim ⟨2, ![1, O]⟩ ![1] hbr2 b2))) Z2 (ix2 R c)
      = lay (pre3 K0 (K0 + K1) (by omega) (by omega) (by omega) (fun k => x0 (ix2 R k)) (fun k => x1 (ix2 R k))
          (fun k => x2 (ix2 R k)) W1 (fun h => b1 (ix1 h)) z) W2 (fun c => b2 (ix1 c)) z c := by
  rw [rlay_apply wf2 _ W2 b2 hbr2 hbb2 Z2 z hZ2]
  unfold lay
  refine congrArg (fun s => max (s + b2 (ix1 c)) z) (Finset.sum_congr rfl fun h _ => ?_)
  refine congrArg (· * W2 (ix2 h c)) ?_
  beta_reduce
  rw [maximumf_apply, addf_apply, cat3_dot_apply hK, broadcastInDim_oneRow_apply, bias_row_apply, hZ1]
  rfl

/-- The reference's two layers on a two-piece concatenation, read at (R, c). -/
theorem ref2_apply {E K0 K1 K H O : ℕ} (hK : K = K0 + K1)
    (wf1 : DotDims.WF ⟨2, ![E, K]⟩ ⟨2, ![K, H]⟩ ⟨2, ![E, H]⟩ [1] [0] [0] [1] [] [])
    (wf2 : DotDims.WF ⟨2, ![E, H]⟩ ⟨2, ![H, O]⟩ ⟨2, ![E, O]⟩ [1] [0] [0] [1] [] [])
    (x0 : FVec Ideal ⟨2, ![E, K0]⟩ .f32) (x1 : FVec Ideal ⟨2, ![E, K1]⟩ .f32)
    (W1 : FVec Ideal ⟨2, ![K, H]⟩ .f32) (b1 : FVec Ideal ⟨1, ![H]⟩ .f32) (W2 : FVec Ideal ⟨2, ![H, O]⟩ .f32)
    (b2 : FVec Ideal ⟨1, ![O]⟩ .f32)
    (hc : Shape.Concatenates [⟨2, ![E, K0]⟩, ⟨2, ![E, K1]⟩] ⟨2, ![E, K]⟩ 1)
    (hbr1 : (⟨1, ![H]⟩ : Shape).BroadcastsInDim ⟨2, ![1, H]⟩ ![1])
    (hbb1 : (⟨2, ![1, H]⟩ : Shape).BroadcastsInDim ⟨2, ![E, H]⟩ ![0, 1])
    (hbr2 : (⟨1, ![O]⟩ : Shape).BroadcastsInDim ⟨2, ![1, O]⟩ ![1])
    (hbb2 : (⟨2, ![1, O]⟩ : Shape).BroadcastsInDim ⟨2, ![E, O]⟩ ![0, 1])
    (Z1 : FVec Ideal ⟨2, ![E, H]⟩ .f32) (Z2 : FVec Ideal ⟨2, ![E, O]⟩ .f32) (z : Ideal .f32)
    (hZ1 : ∀ i, Z1 i = z) (hZ2 : ∀ i, Z2 i = z) (R : Fin E) (c : Fin O) :
    maximumf (addf (Host.dotGeneral (pdot E H O wf2) none
        (maximumf (addf (Host.dotGeneral (pdot E K H wf1) none
            (concatenate ⟨2, ![E, K]⟩ 1 [⟨⟨2, ![E, K0]⟩, x0⟩, ⟨⟨2, ![E, K1]⟩, x1⟩] hc) W1)
          (broadcastInDim ⟨2, ![E, H]⟩ ![0, 1] hbb1 (broadcastInDim ⟨2, ![1, H]⟩ ![1] hbr1 b1))) Z1) W2)
        (broadcastInDim ⟨2, ![E, O]⟩ ![0, 1] hbb2 (broadcastInDim ⟨2, ![1, O]⟩ ![1] hbr2 b2))) Z2 (ix2 R c)
      = lay (pre2 K0 (by omega) (by omega) (fun k => x0 (ix2 R k)) (fun k => x1 (ix2 R k))
          W1 (fun h => b1 (ix1 h)) z) W2 (fun c => b2 (ix1 c)) z c := by
  rw [rlay_apply wf2 _ W2 b2 hbr2 hbb2 Z2 z hZ2]
  unfold lay
  refine congrArg (fun s => max (s + b2 (ix1 c)) z) (Finset.sum_congr rfl fun h _ => ?_)
  refine congrArg (· * W2 (ix2 h c)) ?_
  beta_reduce
  rw [maximumf_apply, addf_apply, cat2_dot_apply hK, broadcastInDim_oneRow_apply, bias_row_apply, hZ1]
  rfl

/-! ## The whole-array functions -/

/-- The two-layer perceptron applied to every row of three row-aligned arrays: row R of the result depends on row R
    of each piece alone. -/
def mlp3 {E K0 K1 K2 K H O : ℕ} (o1 o2 : ℕ) (h0 : K0 ≤ K) (h1 : o1 + K1 ≤ K) (h2 : o2 + K2 ≤ K)
    (x0 : (⟨2, ![E, K0]⟩ : Shape).Idx → EReal) (x1 : (⟨2, ![E, K1]⟩ : Shape).Idx → EReal)
    (x2 : (⟨2, ![E, K2]⟩ : Shape).Idx → EReal) (W1 : (⟨2, ![K, H]⟩ : Shape).Idx → EReal) (b1 : Fin H → EReal)
    (W2 : (⟨2, ![H, O]⟩ : Shape).Idx → EReal) (b2 : Fin O → EReal) (z : EReal) :
    (⟨2, ![E, O]⟩ : Shape).Idx → EReal :=
  fun i => lay (pre3 o1 o2 h0 h1 h2 (fun k => x0 (ix2 (i 0 : Fin E) k)) (fun k => x1 (ix2 (i 0 : Fin E) k))
    (fun k => x2 (ix2 (i 0 : Fin E) k)) W1 b1 z) W2 b2 z (i 1 : Fin O)

/-- The same on two pieces. -/
def mlp2 {E K0 K1 K H O : ℕ} (o1 : ℕ) (h0 : K0 ≤ K) (h1 : o1 + K1 ≤ K)
    (x0 : (⟨2, ![E, K0]⟩ : Shape).Idx → EReal) (x1 : (⟨2, ![E, K1]⟩ : Shape).Idx → EReal)
    (W1 : (⟨2, ![K, H]⟩ : Shape).Idx → EReal) (b1 : Fin H → EReal)
    (W2 : (⟨2, ![H, O]⟩ : Shape).Idx → EReal) (b2 : Fin O → EReal) (z : EReal) :
    (⟨2, ![E, O]⟩ : Shape).Idx → EReal :=
  fun i => lay (pre2 o1 h0 h1 (fun k => x0 (ix2 (i 0 : Fin E) k)) (fun k => x1 (ix2 (i 0 : Fin E) k)) W1 b1 z)
    W2 b2 z (i 1 : Fin O)

/-- A maximum with z of a value that is already a maximum with z is that value. -/
theorem max_max_self (a z : EReal) : max (max a z) z = max a z := max_eq_left (le_max_right a z)

end Cert.MlpRows

end
-- ==== Proof.LibFlattenRows.lean ====
/-
  The two leading axes of an array merged into one, or one leading axis split into two, by a shape cast, read at an
  index given by coordinates.

  An array of shape [a, b, c] and an array of shape [n, c] with n = a·b list the same entries in row-major order: entry
  (p, q, r) of the first stands at position (p·b + q)·c + r, which is the position of entry (p·b + q, r) of the second.
  A cast in either direction therefore reads, at the one index, the operand at the other. The row number is passed as
  its own `Fin n` with the equation `k = p·b + q`, so that a caller may spell it as it finds it.
-/
import Idealize.ShloMosaic.Lib.Pipeline.Value
import Idealize.ShloMosaic.Lib.ValueIdx

namespace Cert.LibFlattenRows

open Idealize.ShloMosaic Idealize.ShloMosaic.ValueIdx

variable {α : Type}

/-- Row `p·b + q` of the merged array exists: it is below `a·b`. -/
theorem row_lt {a b : ℕ} (p : Fin a) (q : Fin b) : p.val * b + q.val < a * b :=
  calc p.val * b + q.val < p.val * b + b := Nat.add_lt_add_left q.isLt _
    _ = (p.val + 1) * b := (Nat.succ_mul _ _).symm
    _ ≤ a * b := Nat.mul_le_mul_right b p.isLt

/-- An `[a, b, c]` array cast to `[n, c]` (so `n = a·b`) reads, at `(k, r)` with `k = p·b + q`, the operand at
    `(p, q, r)`: the two indices have the same row-major position. -/
theorem shapeCast_abc_nc_apply {a b c n : ℕ} (x : (⟨3, ![a, b, c]⟩ : Shape).Idx → α)
    (h : (⟨3, ![a, b, c]⟩ : Shape).ShapeCasts ⟨2, ![n, c]⟩) (p : Fin a) (q : Fin b) (r : Fin c) (k : Fin n)
    (hk : k.val = p.val * b + q.val) :
    shapeCast ⟨2, ![n, c]⟩ x h (ix2 k r) = x (ix3 p q r) :=
  shapeCast_apply x h _ _ (by
    rw [Shape.rowMajor_val_three, Shape.rowMajor_val_two]
    show (p.val * b + q.val) * c + r.val = k.val * c + r.val
    rw [hk])

/-- An `[n, c]` array cast to `[a, b, c]` (so `n = a·b`) reads, at `(p, q, r)`, the operand at `(k, r)` with
    `k = p·b + q`. -/
theorem shapeCast_nc_abc_apply {a b c n : ℕ} (x : (⟨2, ![n, c]⟩ : Shape).Idx → α)
    (h : (⟨2, ![n, c]⟩ : Shape).ShapeCasts ⟨3, ![a, b, c]⟩) (p : Fin a) (q : Fin b) (r : Fin c) (k : Fin n)
    (hk : k.val = p.val * b + q.val) :
    shapeCast ⟨3, ![a, b, c]⟩ x h (ix3 p q r) = x (ix2 k r) :=
  shapeCast_apply x h _ _ (by
    rw [Shape.rowMajor_val_three, Shape.rowMajor_val_two]
    show k.val * c + r.val = (p.val * b + q.val) * c + r.val
    rw [hk])

end Cert.LibFlattenRows
-- ==== Proof.LibLayoutRank3.lean ====
/-
  Rank-3 layout facts read at an index built from coordinates: the unit axis in the MIDDLE, and broadcasts along the
  leading and middle axes.

  A matrix [a, b] and the same entries carried with a middle axis of size one, [a, 1, b], list their entries in the same
  row-major order, so the cast reads the operand at the index with the unit coordinate dropped. A vector-dialect
  broadcast to [a, b, c] of an operand that has size one on some of the axes reads the operand at the index with those
  coordinates set to zero: a slab [a, 1, c] is repeated along the middle axis, a slab [1, b, c] along the leading axis, a
  row [1, 1, c] along both. (The casts with the unit axis in FRONT and the rank-2 row broadcast are the library's.)
  General: no program is mentioned.
-/
import Idealize.ShloMosaic.Lib.Pipeline.Value
import Idealize.ShloMosaic.Lib.ValueIdx

namespace Cert.Lib.LayoutRank3

open Idealize.ShloMosaic Idealize.ShloMosaic.ValueIdx

variable {α : Type}

/-- An `[a, b]` array cast to `[a, 1, b]` reads, at `(p, 0, q)`, the operand at `(p, q)`. -/
theorem shapeCast_ab_a1b_apply {a b : ℕ} (x : (⟨2, ![a, b]⟩ : Shape).Idx → α)
    (h : (⟨2, ![a, b]⟩ : Shape).ShapeCasts ⟨3, ![a, 1, b]⟩) (p : Fin a) (u : Fin 1) (q : Fin b) :
    shapeCast ⟨3, ![a, 1, b]⟩ x h (ix3 p u q) = x (ix2 p q) :=
  shapeCast_apply x h _ _ (by
    have hu : u.val = 0 := by omega
    rw [Shape.rowMajor_val_three, Shape.rowMajor_val_two]
    show p.val * b + q.val = (p.val * 1 + u.val) * b + q.val
    rw [hu, Nat.mul_one, Nat.add_zero])

/-- A slab `[a, 1, c]` broadcast to `[a, b, c]` reads, at `(p, q, r)`, the slab at `(p, 0, r)`. -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ x h (ix3 p q r) = x (ix3 p (0 : Fin 1) r) := by
  refine broadcastTo_apply x h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- A slab `[1, b, c]` broadcast to `[a, b, c]` reads, at `(p, q, r)`, the slab at `(0, q, r)`. -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 (0 : Fin 1) q r) := by
  refine broadcastTo_apply x h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- A row `[1, 1, c]` broadcast to `[a, b, c]` reads, at `(p, q, r)`, the row at `(0, 0, r)`. -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ x h (ix3 p q r) = x (ix3 (0 : Fin 1) (0 : Fin 1) r) := by
  refine broadcastTo_apply x h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

end Cert.Lib.LayoutRank3
-- ==== Proof.JointSpec.lean ====
/-
  One entry of the joint network on the extended reals.

  The network adds a projection of an encoder row and a projection of a decoder row, both through halves of one
  weight matrix W1 (its first 512 rows for the encoder, its last 512 for the decoder), adds a bias, clamps below at
  zero, and sends the 640 hidden values through a second weight matrix W2 with a second bias:

      out v  =  (sum over j of  max ((sum_d e d * W1 (d, j)) + (sum_d g d * W1 (512 + d, j)) + b1 j) 0  *  W2 (j, v))  +  b2 v.

  `entry` is that number for an encoder row `e`, a decoder row `g` and an output column `v`; `outAt` picks the two rows
  out of the encoder array [8, 256, 512] and the decoder array [8, 64, 512] by batch, time step and label position, and
  `out` is the whole [8, 256, 64, 1024] result as a function of its index.  No program is mentioned here.
-/
import Idealize.ShloMosaic.PureOps.Ideal
import Idealize.ShloMosaic.Lib.ValueIdx

noncomputable section

open scoped BigOperators

namespace Cert.Joint

open Idealize.ShloMosaic Idealize.ShloMosaic.ValueIdx

/-- Row `d` of the first weight matrix: the half that meets the encoder. -/
abbrev lo (d : Fin 512) : Fin 1024 := ⟨d.val, by omega⟩
/-- Row `512 + d`: the half that meets the decoder. -/
abbrev hi (d : Fin 512) : Fin 1024 := ⟨512 + d.val, by omega⟩

/-- The value the rectifier clamps at: the word of +0.0 read on the extended reals. -/
abbrev floor0 : EReal := Ideal.ofBits .f32 0x00000000#32

/-- Hidden value `j` for an encoder row `e` and a decoder row `g`. -/
def hidden (e g : Fin 512 → EReal) (W1 : (⟨2, ![1024, 640]⟩ : Shape).Idx → EReal) (b1 : Fin 640 → EReal)
    (j : Fin 640) : EReal :=
  max ((∑ d : Fin 512, e d * W1 (ix2 (lo d) j)) + (∑ d : Fin 512, g d * W1 (ix2 (hi d) j)) + b1 j) floor0

/-- Output column `v` for an encoder row `e` and a decoder row `g`. -/
def entry (e g : Fin 512 → EReal) (W1 : (⟨2, ![1024, 640]⟩ : Shape).Idx → EReal) (b1 : Fin 640 → EReal)
    (W2 : (⟨2, ![640, 1024]⟩ : Shape).Idx → EReal) (b2 : Fin 1024 → EReal) (v : Fin 1024) : EReal :=
  (∑ j : Fin 640, hidden e g W1 b1 j * W2 (ix2 j v)) + b2 v

/-- The result at batch `b`, time step `t`, label position `u`, column `v`. -/
def outAt (enc : (⟨3, ![8, 256, 512]⟩ : Shape).Idx → EReal) (dec : (⟨3, ![8, 64, 512]⟩ : Shape).Idx → EReal)
    (W1 : (⟨2, ![1024, 640]⟩ : Shape).Idx → EReal) (b1 : (⟨1, ![640]⟩ : Shape).Idx → EReal)
    (W2 : (⟨2, ![640, 1024]⟩ : Shape).Idx → EReal) (b2 : (⟨1, ![1024]⟩ : Shape).Idx → EReal)
    (b : Fin 8) (t : Fin 256) (u : Fin 64) (v : Fin 1024) : EReal :=
  entry (fun d => enc (ix3 b t d)) (fun d => dec (ix3 b u d)) W1 (fun j => b1 (ix1 j)) W2 (fun w => b2 (ix1 w)) v

/-- The whole result array as one function of its index. -/
def out (enc : (⟨3, ![8, 256, 512]⟩ : Shape).Idx → EReal) (dec : (⟨3, ![8, 64, 512]⟩ : Shape).Idx → EReal)
    (W1 : (⟨2, ![1024, 640]⟩ : Shape).Idx → EReal) (b1 : (⟨1, ![640]⟩ : Shape).Idx → EReal)
    (W2 : (⟨2, ![640, 1024]⟩ : Shape).Idx → EReal) (b2 : (⟨1, ![1024]⟩ : Shape).Idx → EReal) :
    (⟨4, ![8, 256, 64, 1024]⟩ : Shape).Idx → EReal :=
  fun i => outAt enc dec W1 b1 W2 b2 (i 0) (i 1) (i 2) (i 3)

/-- At an index given by coordinates the result is `outAt` of the coordinates. -/
theorem out_ix4 (enc : (⟨3, ![8, 256, 512]⟩ : Shape).Idx → EReal) (dec : (⟨3, ![8, 64, 512]⟩ : Shape).Idx → EReal)
    (W1 : (⟨2, ![1024, 640]⟩ : Shape).Idx → EReal) (b1 : (⟨1, ![640]⟩ : Shape).Idx → EReal)
    (W2 : (⟨2, ![640, 1024]⟩ : Shape).Idx → EReal) (b2 : (⟨1, ![1024]⟩ : Shape).Idx → EReal)
    (b : Fin 8) (t : Fin 256) (u : Fin 64) (v : Fin 1024) :
    out enc dec W1 b1 W2 b2 (ix4 b t u v) = outAt enc dec W1 b1 W2 b2 b t u v := rfl

end Cert.Joint

end
-- ==== Proof.JointBody.lean ====
/-
  What the kernel body computes from its blocks, read at one entry.

  At a grid point the body holds an encoder block of 16 rows, the decoder's 64 rows of the same batch, the whole first
  weight matrix, the first bias as a row, the whole second weight matrix and the second bias as a row.  It multiplies the
  encoder rows by the upper half of W1 and the decoder rows by the lower half, spreads the two products over a
  [16, 64, 640] array (row p of the first against row q of the second), adds the bias row, clamps at zero, lays the
  16 * 64 pairs out as 1024 rows, multiplies by W2, adds the second bias row and folds the 1024 rows back to [16, 64].
  Read at (p, q, r) that is `Joint.entry` of encoder row p, decoder row q and column r: the casts between float formats
  are the identity on the extended reals, the products into a zero accumulator are plain sums, and every cast and
  broadcast moves an entry without changing it.
-/
import proofs.«133918_j69337952026794_1_alg».proof.Proof.Gen.KernelIdeal.Skeleton
import proofs.«133918_j69337952026794_1_alg».proof.Proof.LibMlpRows
import proofs.«133918_j69337952026794_1_alg».proof.Proof.LibFlattenRows
import proofs.«133918_j69337952026794_1_alg».proof.Proof.LibLayoutRank3
import proofs.«133918_j69337952026794_1_alg».proof.Proof.JointSpec
import Idealize.ShloMosaic.Lib.Pipeline.Value
import Idealize.ShloMosaic.Lib.ValueIdx
import Idealize.ShloMosaic.Lib.ValueLayout

noncomputable section

open scoped BigOperators

namespace Cert.Joint.Body

open Idealize.ShloMosaic Idealize.ShloMosaic.ValueIdx Cert.KernelIdeal Cert.KernelIdeal.Gen
open Cert.Lib.LayoutRank3 Cert.LibFlattenRows

/-- The encoder rows times the upper half of W1, at (p, j): the sum over d of the block's row p against W1's rows
    0 … 511. -/
theorem enc_proj (P0 : Vec Ideal S1x16x512 .f32) (P2 : Vec Ideal S1024x640 .f32) (p : Fin 16) (j : Fin 640) :
    matmul dot_S16x512_S512x640_S16x640_1_0_0_1_n_n none
        (truncf .bf16 (shapeCast S16x512 P0 shapeCasts_S1x16x512_S16x512) bitsLt_bf16_f32)
        (truncf .bf16 (extractStridedSlice S512x640 ![0, 0] P2 slices_S1024x640_o0_0_S512x640) bitsLt_bf16_f32)
        (constant (F := Ideal) S16x640 .f32 0x00000000#32) (ix2 p j)
      = ∑ d : Fin 512, P0 (ix3 (0 : Fin 1) p d) * P2 (ix2 (lo d) j) := by
  refine (Cert.MlpRows.pmatmul_apply dot_S16x512_S512x640_S16x640_1_0_0_1_n_n_wf none _ _ p j).trans ?_
  refine Finset.sum_congr rfl fun d _ => ?_
  refine congrArg₂ (· * ·) ?_ ?_
  · exact shapeCast_1ab_ab_apply P0 _ p d
  · exact slice2_axis0_apply 0 P2 slices_S1024x640_o0_0_S512x640 d j (lo d) (Nat.zero_add _).symm

/-- The decoder rows times the lower half of W1, at (q, j): the sum over d of the block's row q against W1's rows
    512 … 1023. -/
theorem dec_proj (P1 : Vec Ideal S1x64x512 .f32) (P2 : Vec Ideal S1024x640 .f32) (q : Fin 64) (j : Fin 640) :
    matmul dot_S64x512_S512x640_S64x640_1_0_0_1_n_n none
        (truncf .bf16 (shapeCast S64x512 P1 shapeCasts_S1x64x512_S64x512) bitsLt_bf16_f32)
        (truncf .bf16 (extractStridedSlice S512x640 ![512, 0] P2 slices_S1024x640_o512_0_S512x640) bitsLt_bf16_f32)
        (constant (F := Ideal) S64x640 .f32 0x00000000#32) (ix2 q j)
      = ∑ d : Fin 512, P1 (ix3 (0 : Fin 1) q d) * P2 (ix2 (hi d) j) := by
  refine (Cert.MlpRows.pmatmul_apply dot_S64x512_S512x640_S64x640_1_0_0_1_n_n_wf none _ _ q j).trans ?_
  refine Finset.sum_congr rfl fun d _ => ?_
  refine congrArg₂ (· * ·) ?_ ?_
  · exact shapeCast_1ab_ab_apply P1 _ q d
  · exact slice2_axis0_apply 512 P2 slices_S1024x640_o512_0_S512x640 d j (hi d) rfl

/-- THE BODY'S RESULT AT ONE ENTRY: at (p, q, r) it is `Joint.entry` of the encoder block's row p, the decoder block's
    row q, the two weight matrices, the two bias rows and the column r. -/
theorem pay_apply (P0 : Vec Ideal S1x16x512 .f32) (P1 : Vec Ideal S1x64x512 .f32) (P2 : Vec Ideal S1024x640 .f32)
    (P3 : Vec Ideal S1x640 .f32) (P4 : Vec Ideal S640x1024 .f32) (P5 : Vec Ideal S1x1024 .f32)
    (p : Fin 16) (q : Fin 64) (r : Fin 1024) :
    k0_pay2 (F := Ideal) P0 P1 P2 P3 P4 P5 (ix3 p q r)
      = entry (fun d => P0 (ix3 (0 : Fin 1) p d)) (fun d => P1 (ix3 (0 : Fin 1) q d)) P2
          (fun j => P3 (ix2 (0 : Fin 1) j)) P4 (fun w => P5 (ix2 (0 : Fin 1) w)) r := by
  unfold k0_pay2
  -- the 1024 rows folded back to [16, 64]: entry (p, q, r) is row p * 64 + q, column r
  refine (shapeCast_nc_abc_apply _ _ p q r (⟨p.val * 64 + q.val, row_lt p q⟩ : Fin 1024) rfl).trans ?_
  unfold entry
  show _ + _ = _ + _
  refine congrArg₂ (· + ·) ?_ ?_
  · -- the product with W2 is the sum over the 640 hidden values
    refine (Cert.MlpRows.pmatmul_apply dot_S1024x640_S640x1024_S1024x1024_1_0_0_1_n_n_wf none _ _ _ r).trans ?_
    refine Finset.sum_congr rfl fun j _ => ?_
    refine congrArg₂ (· * ·) ?_ rfl
    -- row p * 64 + q of the flattened hidden array is its entry (p, q, ·)
    refine (shapeCast_abc_nc_apply _ _ p q j (⟨p.val * 64 + q.val, row_lt p q⟩ : Fin 1024) rfl).trans ?_
    unfold hidden
    show max ((_ + _) + _) _ = max ((_ + _) + _) _
    refine congrArg₂ max (congrArg₂ (· + ·) (congrArg₂ (· + ·) ?_ ?_) ?_) ?_
    · refine (broadcastTo_a1c_abc_apply _ _ p q j).trans ?_
      refine (shapeCast_ab_a1b_apply _ _ p (0 : Fin 1) j).trans ?_
      exact enc_proj P0 P2 p j
    · refine (broadcastTo_1bc_abc_apply _ _ p q j).trans ?_
      refine (shapeCast_ab_1ab_apply _ _ (0 : Fin 1) q j).trans ?_
      exact dec_proj P1 P2 q j
    · refine (broadcastTo_11c_abc_apply _ _ p q j).trans ?_
      refine (shapeCast_ab_1ab_apply _ _ (0 : Fin 1) (0 : Fin 1) j).trans ?_
      exact congrFun (shapeCast_self P3 _) _
    · rfl
  · -- the second bias row repeated down the 1024 rows
    refine (broadcastTo_1b_ab_apply _ _ (⟨p.val * 64 + q.val, row_lt p q⟩ : Fin 1024) r).trans ?_
    exact congrFun (shapeCast_self P5 _) _

end Cert.Joint.Body

end
-- ==== Proof.JointBlocks.lean ====
/-
  From the kernel's blocks to its result array.

  The grid has 8 * 16 points; point (b, ti) works on rows 16 ti … 16 ti + 15 of batch b of the encoder array, on all 64
  rows of batch b of the decoder array, on the whole weight matrices and bias rows, and writes back the [16, 64, 1024]
  block of the result at batch b, time steps 16 ti … 16 ti + 15.  So entry (p, q, r) of what point (b, ti) writes back is
  the joint network's entry for encoder row (b, 16 ti + p), decoder row (b, q) and column r: the result array's own
  entry at (b, 16 ti + p, q, r).  The blocks tile the result array, hence after the run it is `Joint.out` of the
  argument arrays everywhere.
-/
import proofs.«133918_j69337952026794_1_alg».proof.Proof.Gen.KernelIdeal.Value
import proofs.«133918_j69337952026794_1_alg».proof.Proof.JointBody
import proofs.«133918_j69337952026794_1_alg».proof.Proof.JointSpec
import Idealize.ShloMosaic.Lib.Pipeline.Value
import Idealize.ShloMosaic.Lib.ValueIdx
import Idealize.ShloMosaic.Lib.ValueLayout
import Idealize.ShloMosaic.Lib.StableHlo.Run

noncomputable section

open scoped BigOperators

namespace Cert.Joint.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offsets2_zero : (![0, 0] : Fin 2 → Nat) = fun _ => 0 := funext fun a => by fin_cases a <;> rfl
theorem offsets3_zero : (![0, 0, 0] : Fin 3 → Nat) = fun _ => 0 := funext fun a => by fin_cases a <;> rfl
theorem offsets4_zero : (![0, 0, 0, 0] : Fin 4 → Nat) = fun _ => 0 := funext fun a => by fin_cases a <;> rfl

/-- The result array: the joint network of the six argument arrays as launched. -/
abbrev G (c : Dev nD) : S8x256x64x1024.Idx → EReal :=
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Where each window's block sits at a grid point, decided over the 128 points: the encoder block follows the result's
    block on the batch and time axes, the decoder block on the batch axis only, the weights and biases never move, and the
    result's block index stays inside 8 batches and 16 time tiles. -/
theorem block_positions : ∀ t : Fin cfg0.N,
    win0_0.index t (0 : Fin 3) = win0_6.index t (0 : Fin 4) ∧ win0_0.index t (1 : Fin 3) = win0_6.index t (1 : Fin 4)
    ∧ win0_0.index t (2 : Fin 3) = 0
    ∧ win0_1.index t (0 : Fin 3) = win0_6.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 4) < 8 ∧ win0_6.index t (1 : Fin 4) < 16
    ∧ win0_6.index t (2 : Fin 4) = 0 ∧ win0_6.index t (3 : Fin 4) = 0 :=
  (by decide +kernel : ∀ t : Fin grid0.N, _)

/-- Every (batch, time tile) pair is some point's block index. -/
theorem every_tile_visited : ∀ (q0 : Fin 8) (q1 : Fin 16), ∃ t : Fin cfg0.N, win0_6.index t = ![q0.val, q1.val, 0, 0] :=
  (by decide +kernel : ∀ (q0 : Fin 8) (q1 : Fin 16), ∃ t : Fin grid0.N, win0_6.index t = ![q0.val, q1.val, 0, 0])

/-! ## The input blocks as entries of the argument arrays -/

/-- Row p of the encoder block at point t is row (b, 16 ti + p) of the encoder array. -/
theorem enc_block (c : Dev nD) (t : Fin cfg0.N) (p : Fin 16) (d : Fin 512) (bI : Fin 8) (k : Fin 256)
    (hb : bI.val = win0_6.index t (0 : Fin 4)) (hk : k.val = win0_6.index t (1 : Fin 4) * 16 + p.val) :
    (iblk m c 0 t : Vec Ideal S1x16x512 .f32) (ix3 (0 : Fin 1) p d)
      = (m ((c : Thread nD τ).loc main_arg0) : S8x256x512.Idx → EReal) (ix3 bI k d) := by
  obtain ⟨e00, e01, e02, -⟩ := block_positions t
  show V m c main_arg0 (((cfg0.win 0).blk t).view.emb (ix3 (0 : Fin 1) p d)) = _
  rw [V_main_arg0 m c]
  refine congrArg _ (funext fun a => Fin.ext ?_)
  match a with
  | ⟨0, _⟩ => show win0_0.index t (0 : Fin 3) * 1 + 1 * 0 = bI.val; omega
  | ⟨1, _⟩ => show win0_0.index t (1 : Fin 3) * 16 + 1 * p.val = k.val; omega
  | ⟨2, _⟩ => show win0_0.index t (2 : Fin 3) * 512 + 1 * d.val = d.val; omega

/-- Row q of the decoder block at point t is row (b, q) of the decoder array. -/
theorem dec_block (c : Dev nD) (t : Fin cfg0.N) (q : Fin 64) (d : Fin 512) (bI : Fin 8)
    (hb : bI.val = win0_6.index t (0 : Fin 4)) :
    (iblk m c 1 t : Vec Ideal S1x64x512 .f32) (ix3 (0 : Fin 1) q d)
      = (m ((c : Thread nD τ).loc main_arg1) : S8x64x512.Idx → EReal) (ix3 bI q d) := by
  obtain ⟨-, -, -, e10, e11, e12, -⟩ := block_positions t
  show V m c main_arg1 (((cfg0.win 1).blk t).view.emb (ix3 (0 : Fin 1) q d)) = _
  rw [V_main_arg1 m c]
  refine congrArg _ (funext fun a => Fin.ext ?_)
  match a with
  | ⟨0, _⟩ => show win0_1.index t (0 : Fin 3) * 1 + 1 * 0 = bI.val; omega
  | ⟨1, _⟩ => show win0_1.index t (1 : Fin 3) * 64 + 1 * q.val = q.val; omega
  | ⟨2, _⟩ => show win0_1.index t (2 : Fin 3) * 512 + 1 * d.val = d.val; omega

/-- The first weight matrix's block is the whole matrix, at every point. -/
theorem w1_block (c : Dev nD) (t : Fin cfg0.N) :
    (iblk m c 2 t : Vec Ideal S1024x640 .f32) = (m ((c : Thread nD τ).loc main_arg2) : S1024x640.Idx → EReal) := by
  obtain ⟨-, -, -, -, -, -, e20, e21, -⟩ := block_positions t
  funext x
  show V m c main_arg2 (((cfg0.win 2).blk t).view.emb x) = _
  rw [V_main_arg2 m c]
  refine congrArg _ (funext fun a => Fin.ext ?_)
  match a with
  | ⟨0, _⟩ => show win0_2.index t (0 : Fin 2) * 1024 + 1 * (x 0).val = (x 0).val; omega
  | ⟨1, _⟩ => show win0_2.index t (1 : Fin 2) * 640 + 1 * (x 1).val = (x 1).val; omega

/-- The second weight matrix's block is the whole matrix, at every point. -/
theorem w2_block (c : Dev nD) (t : Fin cfg0.N) :
    (iblk m c 4 t : Vec Ideal S640x1024 .f32) = (m ((c : Thread nD τ).loc main_arg4) : S640x1024.Idx → EReal) := by
  obtain ⟨-, -, -, -, -, -, -, -, -, -, e40, e41, -⟩ := block_positions t
  funext x
  show V m c main_arg4 (((cfg0.win 4).blk t).view.emb x) = _
  rw [V_main_arg4 m c]
  refine congrArg _ (funext fun a => Fin.ext ?_)
  match a with
  | ⟨0, _⟩ => show win0_4.index t (0 : Fin 2) * 640 + 1 * (x 0).val = (x 0).val; omega
  | ⟨1, _⟩ => show win0_4.index t (1 : Fin 2) * 1024 + 1 * (x 1).val = (x 1).val; omega

/-- The first bias reaches the kernel as a [1, 640] row the host cast it to: its entry (0, j) is the bias at j. -/
theorem b1_block (c : Dev nD) (t : Fin cfg0.N) (j : Fin 640) :
    (iblk m c 3 t : Vec Ideal S1x640 .f32) (ix2 (0 : Fin 1) j)
      = (m ((c : Thread nD τ).loc main_arg3) : S640.Idx → EReal) (ix1 j) := by
  obtain ⟨-, -, -, -, -, -, -, -, e30, e31, -⟩ := block_positions t
  have e : (V m c main_v0 : S1x640.Idx → EReal)
      = shapeCast S1x640 (m ((c : Thread nD τ).loc main_arg3) : S640.Idx → EReal) shapeCasts_S640_S1x640 := by
    dsimp only [V, hostOps0]; after_results; rfl
  have hi : ((cfg0.win 3).blk t).view.emb (ix2 (0 : Fin 1) j) = ix2 (0 : Fin 1) j := funext fun a => Fin.ext (by
    match a with
    | ⟨0, _⟩ => show win0_3.index t (0 : Fin 2) * 1 + 1 * 0 = 0; omega
    | ⟨1, _⟩ => show win0_3.index t (1 : Fin 2) * 640 + 1 * j.val = j.val; omega)
  show V m c main_v0 (((cfg0.win 3).blk t).view.emb (ix2 (0 : Fin 1) j)) = _
  rw [hi, e]
  exact shapeCast_a_1a_apply _ _ (0 : Fin 1) j

/-- The second bias likewise, as a [1, 1024] row. -/
theorem b2_block (c : Dev nD) (t : Fin cfg0.N) (w : Fin 1024) :
    (iblk m c 5 t : Vec Ideal S1x1024 .f32) (ix2 (0 : Fin 1) w)
      = (m ((c : Thread nD τ).loc main_arg5) : S1024.Idx → EReal) (ix1 w) := by
  obtain ⟨-, -, -, -, -, -, -, -, -, -, -, -, e50, e51, -⟩ := block_positions t
  have e : (V m c main_v1 : S1x1024.Idx → EReal)
      = shapeCast S1x1024 (m ((c : Thread nD τ).loc main_arg5) : S1024.Idx → EReal) shapeCasts_S1024_S1x1024 := by
    dsimp only [V, hostOps0]; after_results; rfl
  have hi : ((cfg0.win 5).blk t).view.emb (ix2 (0 : Fin 1) w) = ix2 (0 : Fin 1) w := funext fun a => Fin.ext (by
    match a with
    | ⟨0, _⟩ => show win0_5.index t (0 : Fin 2) * 1 + 1 * 0 = 0; omega
    | ⟨1, _⟩ => show win0_5.index t (1 : Fin 2) * 1024 + 1 * w.val = w.val; omega)
  show V m c main_v1 (((cfg0.win 5).blk t).view.emb (ix2 (0 : Fin 1) w)) = _
  rw [hi, e]
  exact shapeCast_a_1a_apply _ _ (0 : Fin 1) w

/-! ## What a point writes back, and the array after the run -/

/-- WHAT POINT t WRITES BACK is block t of the result array `G`. -/
theorem written_back (c : Dev nD) (t : Fin cfg0.N) :
    (dats m 0 c).flushed 6 t = ((cfg0.win 6).blk t).view.read (Elt Ideal) (G m c) := by
  obtain ⟨-, -, -, -, -, -, -, -, -, -, -, -, -, -, h60, h61, h62, h63⟩ := block_positions t
  rw [Value.flushed6]
  unfold out0_6
  rw [View.canon_unit_zero offsets4_zero]
  simp only [View.ld_unit_zero (S := S1x16x512) offsets3_zero, View.ld_unit_zero (S := S1x64x512) offsets3_zero,
    View.ld_unit_zero (S := S1024x640) offsets2_zero, View.ld_unit_zero (S := S1x640) offsets2_zero,
    View.ld_unit_zero (S := S640x1024) offsets2_zero, View.ld_unit_zero (S := S1x1024) offsets2_zero]
  funext y
  obtain ⟨u0, p, q, r, rfl⟩ : ∃ (u0 : Fin 1) (p : Fin 16) (q : Fin 64) (r : Fin 1024), y = ix4 u0 p q r :=
    ⟨y 0, y 1, y 2, y 3, eq_ix4 y⟩
  show k0_pay1 (k0_pay2 (iblk m c 0 t) (iblk m c 1 t) (iblk m c 2 t) (iblk m c 3 t) (iblk m c 4 t) (iblk m c 5 t)) (ix4 u0 p q r)
    = G m c (((cfg0.win 6).blk t).view.emb (ix4 u0 p q r))
  -- the point's batch, and the time step of the block's row p
  have hk : win0_6.index t (1 : Fin 4) * 16 + p.val < 256 := by have := p.isLt; omega
  have hemb : ((cfg0.win 6).blk t).view.emb (ix4 u0 p q r)
      = ix4 (⟨win0_6.index t (0 : Fin 4), h60⟩ : Fin 8) (⟨win0_6.index t (1 : Fin 4) * 16 + p.val, hk⟩ : Fin 256) q r :=
    funext fun a => Fin.ext (by
      match a with
      | ⟨0, _⟩ => show win0_6.index t (0 : Fin 4) * 1 + 1 * u0.val = win0_6.index t (0 : Fin 4); omega
      | ⟨1, _⟩ => show win0_6.index t (1 : Fin 4) * 16 + 1 * p.val = win0_6.index t (1 : Fin 4) * 16 + p.val; omega
      | ⟨2, _⟩ => show win0_6.index t (2 : Fin 4) * 64 + 1 * q.val = q.val; omega
      | ⟨3, _⟩ => show win0_6.index t (3 : Fin 4) * 1024 + 1 * r.val = r.val; omega)
  rw [hemb]
  unfold k0_pay1
  refine (shapeCast_abc_1abc_apply _ _ u0 p q r).trans ?_
  refine (Body.pay_apply (iblk m c 0 t) (iblk m c 1 t) (iblk m c 2 t) (iblk m c 3 t) (iblk m c 4 t) (iblk m c 5 t) p q r).trans ?_
  rw [show (fun d => (iblk m c 0 t : Vec Ideal S1x16x512 .f32) (ix3 (0 : Fin 1) p d))
        = fun d => (m ((c : Thread nD τ).loc main_arg0) : S8x256x512.Idx → EReal)
            (ix3 (⟨win0_6.index t (0 : Fin 4), h60⟩ : Fin 8) (⟨win0_6.index t (1 : Fin 4) * 16 + p.val, hk⟩ : Fin 256) d)
        from funext fun d => enc_block m c t p d _ _ rfl rfl,
    show (fun d => (iblk m c 1 t : Vec Ideal S1x64x512 .f32) (ix3 (0 : Fin 1) q d))
        = fun d => (m ((c : Thread nD τ).loc main_arg1) : S8x64x512.Idx → EReal) (ix3 (⟨win0_6.index t (0 : Fin 4), h60⟩ : Fin 8) q d)
        from funext fun d => dec_block m c t q d _ rfl,
    w1_block m c t, w2_block m c t,
    show (fun j => (iblk m c 3 t : Vec Ideal S1x640 .f32) (ix2 (0 : Fin 1) j))
        = fun j => (m ((c : Thread nD τ).loc main_arg3) : S640.Idx → EReal) (ix1 j) from funext fun j => b1_block m c t j,
    show (fun w => (iblk m c 5 t : Vec Ideal S1x1024 .f32) (ix2 (0 : Fin 1) w))
        = fun w => (m ((c : Thread nD τ).loc main_arg5) : S1024.Idx → EReal) (ix1 w) from funext fun w => b2_block m c t w]
  rfl

/-- An index of the result array is in point t's block iff each coordinate is in the block's range on its axis. -/
theorem in_block_iff (t : Fin cfg0.N) (i : S8x256x64x1024.Idx) :
    i ∈ ((cfg0.win 6).blk t).view.set ↔ ∀ a : Fin 4, win0_6.index t a * S1x16x64x1024.size a ≤ (i a).val
      ∧ (i a).val < win0_6.index t a * S1x16x64x1024.size a + S1x16x64x1024.size a := by
  show i ∈ ((View.whole main_v2).slice (win0_6.rect t)).set ↔ _
  rw [View.set_slice_whole, Rect.mem_set_unit]
  exact Iff.rfl

/-- Every index of the result array lies in the block of the point of its batch and time tile. -/
theorem tiles_cover (i : S8x256x64x1024.Idx) :
    ∃ t : Fin cfg0.N, (cfg0.win 6).flush t = true ∧ i ∈ ((cfg0.win 6).blk t).view.set := by
  have hi0 : (i 0).val < 8 := (i 0).isLt
  have hi1 : (i 1).val < 256 := (i 1).isLt
  have hi2 : (i 2).val < 64 := (i 2).isLt
  have hi3 : (i 3).val < 1024 := (i 3).isLt
  obtain ⟨t, ht⟩ := every_tile_visited ⟨(i 0).val, hi0⟩ ⟨(i 1).val / 16, by omega⟩
  have q0 : win0_6.index t (0 : Fin 4) = (i 0).val := congrFun ht 0
  have q1 : win0_6.index t (1 : Fin 4) = (i 1).val / 16 := congrFun ht 1
  have q2 : win0_6.index t (2 : Fin 4) = 0 := congrFun ht 2
  have q3 : win0_6.index t (3 : Fin 4) = 0 := congrFun ht 3
  refine ⟨t, flush0_6 t, ?_⟩
  rw [in_block_iff]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 16 ≤ (i 1).val ∧ (i 1).val < win0_6.index t (1 : Fin 4) * 16 + 16; omega
  | ⟨2, _⟩ => show win0_6.index t (2 : Fin 4) * 64 ≤ (i 2).val ∧ (i 2).val < win0_6.index t (2 : Fin 4) * 64 + 64; omega
  | ⟨3, _⟩ => show win0_6.index t (3 : Fin 4) * 1024 ≤ (i 3).val ∧ (i 3).val < win0_6.index t (3 : Fin 4) * 1024 + 1024; omega

/-- THE RESULT ARRAY after the run is `G`: the written-back blocks are blocks of `G` and tile the array. -/
theorem result_array (c : Dev nD) : (dats m 0 c).arrAt 6 cfg0.N = G m c :=
  (dats m 0 c).arrAt_eq_of_cover 6 (G m c) (fun t _ => written_back m c t) tiles_cover

/-- The kernel's run, read: the result array ends at the joint network of the arguments, the arguments unchanged. -/
theorem run : θ_run defs (onTc (τ := τ) (main (F := Ideal))) ⟨m, fun _ => 0, ρ⟩ fun r => ∀ c : Dev nD,
      r.2.mem ((c : Thread nD τ).loc main_v2) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (result_array m c), (h c).2⟩) (Value.run_blocks m ρ)

end Cert.Joint.Blocks

end
-- ==== Proof.JointRef.lean ====
/-
  The reference, read at one entry, is the joint network's entry.

  The reference slices W1 into its two halves, contracts the encoder array with the upper half and the decoder array
  with the lower half, spreads the two products over [8, 256, 64, 640] (the first along the label axis, the second along
  the time axis), adds the bias spread over everything, clamps at zero, contracts the last axis with W2 and adds the
  second bias.  Each of those operations read at an index names one index of its operand (the generated stage lemmas);
  followed from the result down to the arguments they give `Joint.outAt` at the index's coordinates.
-/
import proofs.«133918_j69337952026794_1_alg».proof.Proof.Gen.ReferenceIdeal.Read
import proofs.«133918_j69337952026794_1_alg».proof.Proof.JointSpec
import Idealize.ShloMosaic.Lib.ValueIdx

noncomputable section

open scoped BigOperators

namespace Cert.Joint.Ref

open Idealize.ShloMosaic Idealize.ShloMosaic.ValueIdx Cert.ReferenceIdeal Cert.ReferenceIdeal.Read

/-- The encoder product at (b, t, j): row (b, t) of the encoder array against column j of W1's rows 0 … 511. -/
theorem enc_apply (x0 : (⟨S8x256x512, .f32⟩ : BufTy).Contents (Elt Ideal)) (x2 : (⟨S1024x640, .f32⟩ : BufTy).Contents (Elt Ideal))
    (b : Fin 8) (t : Fin 256) (j : Fin 640) :
    val_main_v2 (F := Ideal) x0 x2 (ix3 b t j) = ∑ d : Fin 512, x0 (ix3 b t d) * x2 (ix2 (lo d) j) := by
  rw [val_main_v2_apply]
  refine Finset.sum_congr rfl fun d _ => ?_
  refine congrArg₂ (· * ·) (congrArg x0 ?_) ?_
  · exact funext fun a => match a with | ⟨0, _⟩ => rfl | ⟨1, _⟩ => rfl | ⟨2, _⟩ => rfl
  · rw [val_main_v0_apply]
    exact congrArg x2 (funext fun a => match a with | ⟨0, _⟩ => rfl | ⟨1, _⟩ => rfl)

/-- The decoder product at (b, u, j): row (b, u) of the decoder array against column j of W1's rows 512 … 1023. -/
theorem dec_apply (x1 : (⟨S8x64x512, .f32⟩ : BufTy).Contents (Elt Ideal)) (x2 : (⟨S1024x640, .f32⟩ : BufTy).Contents (Elt Ideal))
    (b : Fin 8) (u : Fin 64) (j : Fin 640) :
    val_main_v3 (F := Ideal) x1 x2 (ix3 b u j) = ∑ d : Fin 512, x1 (ix3 b u d) * x2 (ix2 (hi d) j) := by
  rw [val_main_v3_apply]
  refine Finset.sum_congr rfl fun d _ => ?_
  refine congrArg₂ (· * ·) (congrArg x1 ?_) ?_
  · exact funext fun a => match a with | ⟨0, _⟩ => rfl | ⟨1, _⟩ => rfl | ⟨2, _⟩ => rfl
  · rw [val_main_v1_apply]
    exact congrArg x2 (funext fun a => match a with | ⟨0, _⟩ => rfl | ⟨1, _⟩ => rfl)

/-- The clamped hidden array at (b, t, u, j) is `Joint.hidden` of encoder row (b, t) and decoder row (b, u). -/
theorem hidden_apply (x0 : (⟨S8x256x512, .f32⟩ : BufTy).Contents (Elt Ideal)) (x1 : (⟨S8x64x512, .f32⟩ : BufTy).Contents (Elt Ideal))
    (x2 : (⟨S1024x640, .f32⟩ : BufTy).Contents (Elt Ideal)) (x3 : (⟨S640, .f32⟩ : BufTy).Contents (Elt Ideal))
    (b : Fin 8) (t : Fin 256) (u : Fin 64) (j : Fin 640) :
    val_main_v12 (F := Ideal) x0 x1 x2 x3 (ix4 b t u j)
      = hidden (fun d => x0 (ix3 b t d)) (fun d => x1 (ix3 b u d)) x2 (fun k => x3 (ix1 k)) j := by
  rw [val_main_v12_apply, val_main_v11_apply, val_main_v8_apply, val_main_v6_apply, val_main_v4_apply, val_main_v7_apply,
    val_main_v5_apply, val_main_v10_apply, val_main_v9_apply, val_main_call0_v0_apply, val_main_call0_cst_apply]
  unfold hidden
  show max ((_ + _) + _) _ = max ((_ + _) + _) _
  refine congrArg₂ max (congrArg₂ (· + ·) (congrArg₂ (· + ·) ?_ ?_) ?_) rfl
  · have e : idx_main_v4 (idx_main_v6 (ix4 b t u j)) = ix3 b t j :=
      funext fun a => match a with | ⟨0, _⟩ => rfl | ⟨1, _⟩ => rfl | ⟨2, _⟩ => rfl
    rw [e]; exact enc_apply x0 x2 b t j
  · have e : idx_main_v5 (idx_main_v7 (ix4 b t u j)) = ix3 b u j :=
      funext fun a => match a with | ⟨0, _⟩ => rfl | ⟨1, _⟩ => rfl | ⟨2, _⟩ => rfl
    rw [e]; exact dec_apply x1 x2 b u j
  · exact congrArg x3 (funext fun a => match a with | ⟨0, _⟩ => rfl)

/-- THE REFERENCE AT ONE ENTRY: at (b, t, u, v) its result is `Joint.outAt`. -/
theorem ref_apply (x0 : (⟨S8x256x512, .f32⟩ : BufTy).Contents (Elt Ideal)) (x1 : (⟨S8x64x512, .f32⟩ : BufTy).Contents (Elt Ideal))
    (x2 : (⟨S1024x640, .f32⟩ : BufTy).Contents (Elt Ideal)) (x3 : (⟨S640, .f32⟩ : BufTy).Contents (Elt Ideal))
    (x4 : (⟨S640x1024, .f32⟩ : BufTy).Contents (Elt Ideal)) (x5 : (⟨S1024, .f32⟩ : BufTy).Contents (Elt Ideal))
    (b : Fin 8) (t : Fin 256) (u : Fin 64) (v : Fin 1024) :
    val_main_v16 (F := Ideal) x0 x1 x2 x3 x4 x5 (ix4 b t u v) = outAt x0 x1 x2 x3 x4 x5 b t u v := by
  rw [val_main_v16_apply, val_main_v13_apply, val_main_v15_apply, val_main_v14_apply]
  unfold outAt entry
  show _ + _ = _ + _
  refine congrArg₂ (· + ·) ?_ (congrArg x5 ?_)
  · refine Finset.sum_congr rfl fun j _ => ?_
    refine congrArg₂ (· * ·) ?_ (congrArg x4 ?_)
    · have e : lidx_main_v13 (ix4 b t u v) j = ix4 b t u j :=
        funext fun a => match a with | ⟨0, _⟩ => rfl | ⟨1, _⟩ => rfl | ⟨2, _⟩ => rfl | ⟨3, _⟩ => rfl
      rw [e]; exact hidden_apply x0 x1 x2 x3 b t u j
    · exact funext fun a => match a with | ⟨0, _⟩ => rfl | ⟨1, _⟩ => rfl
  · exact funext fun a => match a with | ⟨0, _⟩ => rfl

/-- The reference's result array is `Joint.out` of the arguments. -/
theorem ref_eq (x0 : (⟨S8x256x512, .f32⟩ : BufTy).Contents (Elt Ideal)) (x1 : (⟨S8x64x512, .f32⟩ : BufTy).Contents (Elt Ideal))
    (x2 : (⟨S1024x640, .f32⟩ : BufTy).Contents (Elt Ideal)) (x3 : (⟨S640, .f32⟩ : BufTy).Contents (Elt Ideal))
    (x4 : (⟨S640x1024, .f32⟩ : BufTy).Contents (Elt Ideal)) (x5 : (⟨S1024, .f32⟩ : BufTy).Contents (Elt Ideal)) :
    val_main_v16 (F := Ideal) x0 x1 x2 x3 x4 x5 = out x0 x1 x2 x3 x4 x5 := by
  funext i
  obtain ⟨b, t, u, v, rfl⟩ : ∃ (b : Fin 8) (t : Fin 256) (u : Fin 64) (v : Fin 1024), i = ix4 b t u v :=
    ⟨i 0, i 1, i 2, i 3, eq_ix4 i⟩
  exact ref_apply x0 x1 x2 x3 x4 x5 b t u v

end Cert.Joint.Ref

end
-- ==== Proof.lean ====
/-
  The joint network of a transducer: a fused kernel against its reference, equal on the extended reals.

  Both programs compute, for batch b, time step t, label position u and column v,

      out (b, t, u, v) = (sum_j  max ((sum_d enc (b, t, d) * W1 (d, j)) + (sum_d dec (b, u, d) * W1 (512 + d, j)) + b1 j) 0
                                  * W2 (j, v))  +  b2 v

  (`Cert.Joint.out`, Proof/JointSpec.lean).  The kernel does it 16 time steps at a time: at grid point (b, ti) it
  multiplies its 16 encoder rows and the batch's 64 decoder rows by the two halves of W1, spreads the two products over a
  [16, 64, 640] array, adds the bias, clamps at zero, multiplies the 1024 flattened rows by W2 and adds the second bias;
  read at one entry this is the formula above at (b, 16 ti + p, q, r) (Proof/JointBody.lean for the arithmetic,
  Proof/JointBlocks.lean for the blocks, which tile the result).  The reference does it for the whole arrays at once,
  with contractions in place of the block products and broadcasts in place of the spreading; read at one entry it is
  the same formula (Proof/JointRef.lean).  On the extended reals the kernel's roundings to a narrower float format are
  the identity and a product into a zero accumulator is a plain sum, and the two programs add their terms in the same
  grouping, so no law of arithmetic is needed beyond reading both sides entry by entry: the precondition is never
  opened.  The idealization rewrote nothing, so the second-to-last conjunct is `True`.  The three frames are the
  generated frame certificates and the reference's generated run with its result dropped.
-/
import proofs.«133918_j69337952026794_1_alg».proof.Defs
import proofs.«133918_j69337952026794_1_alg».proof.Proof.Gen.Kernel
import proofs.«133918_j69337952026794_1_alg».proof.Proof.Gen.Kernel.Skeleton
import proofs.«133918_j69337952026794_1_alg».proof.Proof.Gen.Kernel.Launch
import proofs.«133918_j69337952026794_1_alg».proof.Proof.Gen.Kernel.Points
import proofs.«133918_j69337952026794_1_alg».proof.Proof.Gen.Kernel.Frame
import proofs.«133918_j69337952026794_1_alg».proof.Proof.Gen.KernelIdeal
import proofs.«133918_j69337952026794_1_alg».proof.Proof.Gen.KernelIdeal.Skeleton
import proofs.«133918_j69337952026794_1_alg».proof.Proof.Gen.KernelIdeal.Launch
import proofs.«133918_j69337952026794_1_alg».proof.Proof.Gen.KernelIdeal.Points
import proofs.«133918_j69337952026794_1_alg».proof.Proof.Gen.KernelIdeal.Frame
import proofs.«133918_j69337952026794_1_alg».proof.Proof.Gen.ReferenceIdeal
import proofs.«133918_j69337952026794_1_alg».proof.Proof.Gen.Pre_finite_inputs
import proofs.«133918_j69337952026794_1_alg».proof.Proof.Gen.KernelIdeal.Value
import proofs.«133918_j69337952026794_1_alg».proof.Proof.Gen.ReferenceIdeal.Run
import proofs.«133918_j69337952026794_1_alg».proof.Proof.Gen.ReferenceIdeal.Read
import proofs.«133918_j69337952026794_1_alg».proof.Proof.JointBlocks
import proofs.«133918_j69337952026794_1_alg».proof.Proof.JointRef
import Idealize.ShloMosaic.Adequacy
import Idealize.ShloMosaic.Init

noncomputable section

namespace Cert.Proof

open Idealize.ShloMosaic Idealize.ShloMosaic.TcCoe Idealize.SL.Sem

namespace JointClaims

/-- The printed kernel runs and leaves its arguments as they were: the generated frame certificate. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its generated run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation: nothing to restate. -/
theorem preserves : Cert.preserves_Kernel_KernelIdeal := trivial

/-- From memories that agree on the six arguments both programs end with the result array at `Cert.Joint.out` of the
    arguments: the kernel's by its blocks, the reference's by its stages. -/
theorem algebraic : Cert.algebraic_KernelIdeal_ReferenceIdeal := by
  intro m ρ m' ρ' _ hagree
  refine ⟨fun c => Cert.Joint.Blocks.G m c, Cert.Joint.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, Cert.Joint.Ref.ref_eq, (hagree c).1, (hagree c).2.1, (hagree c).2.2.1,
    (hagree c).2.2.2.1, (hagree c).2.2.2.2.1, (hagree c).2.2.2.2.2]

end JointClaims

theorem claim : Cert.Claim :=
  ⟨Cert.Kernel.Gen.facts, Cert.KernelIdeal.Gen.facts, Cert.ReferenceIdeal.Gen.facts, Cert.Pre_finite_inputs.Gen.facts,
    JointClaims.frame_k, JointClaims.frame_ki, JointClaims.frame_ri, JointClaims.preserves, JointClaims.algebraic⟩

end Cert.Proof

end
